-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "fold_c_67108864_13421773" .f32 0x40A00000#32 ((67108864 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32 : Shape := ⟨2, ![2048, 32]⟩
abbrev S2048x2048 : Shape := ⟨2, ![2048, 2048]⟩
abbrev S32x32 : Shape := ⟨2, ![32, 32]⟩
abbrev S32 : Shape := ⟨1, ![32]⟩
abbrev S16x32 : Shape := ⟨2, ![16, 32]⟩
abbrev S16 : Shape := ⟨1, ![16]⟩
abbrev S_ : Shape := ⟨0, ![]⟩

class Facts : Prop where
  bcast_S_S2048x32 : S_.BroadcastsInDim S2048x32 (![] : Fin 0 → Fin S2048x32.rank)
  reducesTo_S2048x32_S_d0_1 : S2048x32.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16x32 .f32) (main_arg5 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S16x32 .f32 := Host.absf main_arg4
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S2048x32 .f32) (main_arg1 : FVec F S2048x2048 .f32) (main_arg2 : FVec F S32x32 .f32) (main_arg3 : FVec F S32 .f32) (main_arg4 : FVec F S16x32 .f32) (main_arg5 : FVec F S16 .f32) : IVec S_ 1 :=
  let main_v0 : FVec F S2048x32 .f32 := Host.absf main_arg0
  let main_cst : FVec F S_ .f32 := constant S_ .f32 0x7F800000#32
  let main_v1 : FVec F S2048x32 .f32 := broadcastInDim S2048x32 ![] bcast_S_S2048x32 main_cst
  let main_v2 : IVec S2048x32 1 := cmpf .olt main_v0 main_v1
  let main_c : IVec S_ 1 := constantI S_ 1 1#1
  let main_v3 : IVec S_ 1 := (fun x v => Host.reduce IntOp.andi x v reducesTo_S2048x32_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S2048x32 : Shape := ⟨2, ![2048, 32]⟩
abbrev S2048x2048 : Shape := ⟨2, ![2048, 2048]⟩
abbrev S32x32 : Shape := ⟨2, ![32, 32]⟩
abbrev S32 : Shape := ⟨1, ![32]⟩
abbrev S16x32 : Shape := ⟨2, ![16, 32]⟩
abbrev S16 : Shape := ⟨1, ![16]⟩
abbrev S32x2048 : Shape := ⟨2, ![32, 2048]⟩
abbrev S32x1 : Shape := ⟨2, ![32, 1]⟩
abbrev S16x1 : Shape := ⟨2, ![16, 1]⟩
abbrev S16x2048 : Shape := ⟨2, ![16, 2048]⟩
abbrev S2048 : Shape := ⟨1, ![2048]⟩
abbrev S1x2048 : Shape := ⟨2, ![1, 2048]⟩
abbrev S2048x16 : Shape := ⟨2, ![2048, 16]⟩

abbrev nBuf : Space → Nat
  | .hbm => 11
  | .vmem => 7
  | .smem => 0
  | _ => 0

abbrev bufTy : (tb : Table) → Fin (tcTables nBuf tb) → BufTy
  | .hbm, ⟨0, _⟩ => ⟨S2048x32, .f32⟩
  | .hbm, ⟨1, _⟩ => ⟨S2048x2048, .f32⟩
  | .hbm, ⟨2, _⟩ => ⟨S32x32, .f32⟩
  | .hbm, ⟨3, _⟩ => ⟨S32, .f32⟩
  | .hbm, ⟨4, _⟩ => ⟨S16x32, .f32⟩
  | .hbm, ⟨5, _⟩ => ⟨S16, .f32⟩
  | .hbm, ⟨6, _⟩ => ⟨S32x2048, .f32⟩
  | .hbm, ⟨7, _⟩ => ⟨S32x1, .f32⟩
  | .hbm, ⟨8, _⟩ => ⟨S16x1, .f32⟩
  | .hbm, ⟨9, _⟩ => ⟨S16x2048, .f32⟩
  | .hbm, ⟨10, _⟩ => ⟨S2048x16, .f32⟩
  | .local _ .vmem, ⟨0, _⟩ => ⟨S32x2048, .f32⟩
  | .local _ .vmem, ⟨1, _⟩ => ⟨S2048x2048, .f32⟩
  | .local _ .vmem, ⟨2, _⟩ => ⟨S32x32, .f32⟩
  | .local _ .vmem, ⟨3, _⟩ => ⟨S32x1, .f32⟩
  | .local _ .vmem, ⟨4, _⟩ => ⟨S16x32, .f32⟩
  | .local _ .vmem, ⟨5, _⟩ => ⟨S16x1, .f32⟩
  | .local _ .vmem, ⟨6, _⟩ => ⟨S16x2048, .f32⟩
  | _, _ => ⟨S2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

class Facts₀ : Prop where
  transposes_S2048x32_S32x2048_1_0 : S2048x32.Transposes [1, 0] S32x2048
  bcast_S32_S32x1_0 : S32.BroadcastsInDim S32x1 (![0] : Fin 1 → Fin S32x1.rank)
  bcast_S16_S16x1_0 : S16.BroadcastsInDim S16x1 (![0] : Fin 1 → Fin S16x1.rank)
  inb_S2048x2048_S2048x2048_0_0 : ∀ a, (![0, 0] : Fin 2 → Nat) a + S2048x2048.size a ≤ S2048x2048.size a
  h_S2048x2048 : 0 < S2048x2048.numel
  reduces_S2048x2048_S2048 : S2048x2048.Reduces [0] S2048
  shapeCasts_S2048_S1x2048 : S2048.ShapeCasts S1x2048
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S32x32_S32x32_0_0 : ∀ a, (![0, 0] : Fin 2 → Nat) a + S32x32.size a ≤ S32x32.size a
  h_S32x32 : 0 < S32x32.numel
  broadcasts_S1x2048_S32x2048 : S1x2048.Broadcasts S32x2048
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x2048 : S32x1.Broadcasts S32x2048
  inb_S16x32_S16x32_0_0 : ∀ a, (![0, 0] : Fin 2 → Nat) a + S16x32.size a ≤ S16x32.size a
  h_S16x32 : 0 < S16x32.numel
  broadcasts_S1x2048_S16x2048 : S1x2048.Broadcasts S16x2048
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x2048 : S16x1.Broadcasts S16x2048
  reduces_S16x2048_S2048 : S16x2048.Reduces [0] S2048
  inb_S16x2048_S16x2048_0_0 : ∀ a, (![0, 0] : Fin 2 → Nat) a + S16x2048.size a ≤ S16x2048.size a
  h_S16x2048 : 0 < S16x2048.numel
  transposes_S16x2048_S2048x16_1_0 : S16x2048.Transposes [1, 0] S2048x16
  dot_S32x32_S32x2048_S32x2048_1_0_0_1_n_n_wf : DotDims.WF S32x32 S32x2048 S32x2048 [1] [0] [0] [1] [] []
  dot_S32x2048_S2048x2048_S32x2048_1_0_0_1_n_n_wf : DotDims.WF S32x2048 S2048x2048 S32x2048 [1] [0] [0] [1] [] []
  dot_S16x32_S32x2048_S16x2048_1_0_0_1_n_n_wf : DotDims.WF S16x32 S32x2048 S16x2048 [1] [0] [0] [1] [] []
  dot_S16x2048_S2048x2048_S16x2048_1_0_0_1_n_n_wf : DotDims.WF S16x2048 S2048x2048 S16x2048 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole

variable [Facts₀]

def dot_S32x32_S32x2048_S32x2048_1_0_0_1_n_n : DotDims S32x32 S32x2048 S32x2048 where
  lhsContracting := [1]
  rhsContracting := [0]
  lhsNonContracting := [0]
  rhsNonContracting := [1]
  lhsBatch := []
  rhsBatch := []
  wf := dot_S32x32_S32x2048_S32x2048_1_0_0_1_n_n_wf
def dot_S32x2048_S2048x2048_S32x2048_1_0_0_1_n_n : DotDims S32x2048 S2048x2048 S32x2048 where
  lhsContracting := [1]
  rhsContracting := [0]
  lhsNonContracting := [0]
  rhsNonContracting := [1]
  lhsBatch := []
  rhsBatch := []
  wf := dot_S32x2048_S2048x2048_S32x2048_1_0_0_1_n_n_wf
def dot_S16x32_S32x2048_S16x2048_1_0_0_1_n_n : DotDims S16x32 S32x2048 S16x2048 where
  lhsContracting := [1]
  rhsContracting := [0]
  lhsNonContracting := [0]
  rhsNonContracting := [1]
  lhsBatch := []
  rhsBatch := []
  wf := dot_S16x32_S32x2048_S16x2048_1_0_0_1_n_n_wf
def dot_S16x2048_S2048x2048_S16x2048_1_0_0_1_n_n : DotDims S16x2048 S2048x2048 S16x2048 where
  lhsContracting := [1]
  rhsContracting := [0]
  lhsNonContracting := [0]
  rhsNonContracting := [1]
  lhsBatch := []
  rhsBatch := []
  wf := dot_S16x2048_S2048x2048_S16x2048_1_0_0_1_n_n_wf

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_v2) false false (stage0_5 0) (sem0_5 0) (Memref.isWhole_whole _) (hstage0_5 0)

abbrev win0_6 : Pipeline.Window sig grid0 :=
  Pipeline.Window.whole (Memref.whole main_v3) true false (stage0_6 0) (sem0_6 0) (Memref.isWhole_whole _) (hstage0_6 0)

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x32 : Shape := ⟨2, ![2048, 32]⟩
abbrev S2048x2048 : Shape := ⟨2, ![2048, 2048]⟩
abbrev S32x32 : Shape := ⟨2, ![32, 32]⟩
abbrev S32 : Shape := ⟨1, ![32]⟩
abbrev S16x32 : Shape := ⟨2, ![16, 32]⟩
abbrev S16 : Shape := ⟨1, ![16]⟩
abbrev S2048 : Shape := ⟨1, ![2048]⟩
abbrev S4194304 : Shape := ⟨1, ![4194304]⟩
abbrev S1x2048 : Shape := ⟨2, ![1, 2048]⟩
abbrev S_ : Shape := ⟨0, ![]⟩
abbrev S4194304x1 : Shape := ⟨2, ![4194304, 1]⟩
abbrev S4194304x2 : Shape := ⟨2, ![4194304, 2]⟩
abbrev S4196352 : Shape := ⟨1, ![4196352]⟩
abbrev S4196352x1 : Shape := ⟨2, ![4196352, 1]⟩
abbrev S4196352x32 : Shape := ⟨2, ![4196352, 32]⟩
abbrev S1x32 : Shape := ⟨2, ![1, 32]⟩
abbrev S32x16 : Shape := ⟨2, ![32, 16]⟩
abbrev S2048x16 : Shape := ⟨2, ![2048, 16]⟩
abbrev S4196352x16 : Shape := ⟨2, ![4196352, 16]⟩
abbrev S1x16 : Shape := ⟨2, ![1, 16]⟩
abbrev S2048x1 : Shape := ⟨2, ![2048, 1]⟩

abbrev nBuf : Space → Nat
  | .hbm => 217
  | .vmem => 0
  | .smem => 0
  | _ => 0

abbrev hbmTy0_0 (i : Nat) : BufTy := match i % 128 with
  | 0 => ⟨S2048x32, .f32⟩
  | 1 => ⟨S2048x2048, .f32⟩
  | 2 => ⟨S32x32, .f32⟩
  | 3 => ⟨S32, .f32⟩
  | 4 => ⟨S16x32, .f32⟩
  | 5 => ⟨S16, .f32⟩
  | 6 => ⟨S2048, .i32⟩
  | 7 => ⟨S2048x2048, .i32⟩
  | 8 => ⟨S4194304, .i32⟩
  | 9 => ⟨S1x2048, .i32⟩
  | 10 => ⟨S2048x2048, .i32⟩
  | 11 => ⟨S4194304, .i32⟩
  | 12 => ⟨S_, .i32⟩
  | 13 => ⟨S4194304, .i32⟩
  | 14 => ⟨S4194304, .i1⟩
  | 15 => ⟨S_, .i32⟩
  | 16 => ⟨S4194304, .i32⟩
  | 17 => ⟨S4194304, .i32⟩
  | 18 => ⟨S4194304, .i32⟩
  | 19 => ⟨S_, .i32⟩
  | 20 => ⟨S4194304, .i32⟩
  | 21 => ⟨S4194304, .i1⟩
  | 22 => ⟨S_, .i32⟩
  | 23 => ⟨S4194304, .i32⟩
  | 24 => ⟨S4194304, .i32⟩
  | 25 => ⟨S4194304, .i32⟩
  | 26 => ⟨S4194304x1, .i32⟩
  | 27 => ⟨S4194304x1, .i32⟩
  | 28 => ⟨S4194304x2, .i32⟩
  | 29 => ⟨S4194304, .f32⟩
  | 30 => ⟨S2048, .i32⟩
  | 31 => ⟨S4196352, .i32⟩
  | 32 => ⟨S4196352, .i32⟩
  | 33 => ⟨S_, .f32⟩
  | 34 => ⟨S2048, .f32⟩
  | 35 => ⟨S4196352, .f32⟩
  | 36 => ⟨S32x32, .f32⟩
  | 37 => ⟨S2048x32, .f32⟩
  | 38 => ⟨S_, .f32⟩
  | 39 => ⟨S2048, .f32⟩
  | 40 => ⟨S_, .i32⟩
  | 41 => ⟨S4196352, .i32⟩
  | 42 => ⟨S4196352, .i1⟩
  | 43 => ⟨S_, .i32⟩
  | 44 => ⟨S4196352, .i32⟩
  | 45 => ⟨S4196352, .i32⟩
  | 46 => ⟨S4196352, .i32⟩
  | 47 => ⟨S4196352x1, .i32⟩
  | 48 => ⟨S2048, .f32⟩
  | 49 => ⟨S_, .f32⟩
  | 50 => ⟨S2048, .f32⟩
  | 51 => ⟨S2048, .i1⟩
  | 52 => ⟨S_, .f32⟩
  | 53 => ⟨S2048, .f32⟩
  | 54 => ⟨S2048, .i1⟩
  | 55 => ⟨S_, .f32⟩
  | 56 => ⟨S_, .f32⟩
  | 57 => ⟨S2048, .f32⟩
  | 58 => ⟨S2048, .f32⟩
  | 59 => ⟨S2048, .f32⟩
  | 60 => ⟨S_, .f32⟩
  | 61 => ⟨S2048, .f32⟩
  | 62 => ⟨S2048, .f32⟩
  | 63 => ⟨S_, .f32⟩
  | 64 => ⟨S_, .f32⟩
  | 65 => ⟨S2048, .f32⟩
  | 66 => ⟨S2048, .f32⟩
  | 67 => ⟨S_, .i32⟩
  | 68 => ⟨S4196352, .i32⟩
  | 69 => ⟨S4196352, .i1⟩
  | 70 => ⟨S_, .i32⟩
  | 71 => ⟨S4196352, .i32⟩
  | 72 => ⟨S4196352, .i32⟩
  | 73 => ⟨S4196352, .i32⟩
  | 74 => ⟨S4196352x1, .i32⟩
  | 75 => ⟨S4196352, .f32⟩
  | 76 => ⟨S4196352, .f32⟩
  | 77 => ⟨S_, .i32⟩
  | 78 => ⟨S4196352, .i32⟩
  | 79 => ⟨S4196352, .i1⟩
  | 80 => ⟨S_, .i32⟩
  | 81 => ⟨S4196352, .i32⟩
  | 82 => ⟨S4196352, .i32⟩
  | 83 => ⟨S4196352, .i32⟩
  | 84 => ⟨S4196352x1, .i32⟩
  | 85 => ⟨S4196352, .f32⟩
  | 86 => ⟨S4196352, .f32⟩
  | 87 => ⟨S_, .f32⟩
  | 88 => ⟨S2048x32, .f32⟩
  | 89 => ⟨S4196352x1, .f32⟩
  | 90 => ⟨S_, .i32⟩
  | 91 => ⟨S4196352, .i32⟩
  | 92 => ⟨S4196352, .i1⟩
  | 93 => ⟨S_, .i32⟩
  | 94 => ⟨S4196352, .i32⟩
  | 95 => ⟨S4196352, .i32⟩
  | 96 => ⟨S4196352, .i32⟩
  | 97 => ⟨S4196352x1, .i32⟩
  | 98 => ⟨S4196352x32, .f32⟩
  | 99 => ⟨S4196352x32, .f32⟩
  | 100 => ⟨S4196352x32, .f32⟩
  | 101 => ⟨S_, .i32⟩
  | 102 => ⟨S4196352, .i32⟩
  | 103 => ⟨S4196352, .i1⟩
  | 104 => ⟨S_, .i32⟩
  | 105 => ⟨S4196352, .i32⟩
  | 106 => ⟨S4196352, .i32⟩
  | 107 => ⟨S4196352, .i32⟩
  | 108 => ⟨S4196352x1, .i32⟩
  | 109 => ⟨S2048x32, .f32⟩
  | 110 => ⟨S1x32, .f32⟩
  | 111 => ⟨S2048x32, .f32⟩
  | 112 => ⟨S2048x32, .f32⟩
  | 113 => ⟨S_, .f32⟩
  | 114 => ⟨S2048x32, .f32⟩
  | 115 => ⟨S2048x32, .f32⟩
  | 116 => ⟨S2048, .i32⟩
  | 117 => ⟨S4196352, .i32⟩
  | 118 => ⟨S4196352, .i32⟩
  | 119 => ⟨S_, .f32⟩
  | 120 => ⟨S2048, .f32⟩
  | 121 => ⟨S4196352, .f32⟩
  | 122 => ⟨S32x16, .f32⟩
  | 123 => ⟨S2048x16, .f32⟩
  | 124 => ⟨S_, .f32⟩
  | 125 => ⟨S2048, .f32⟩
  | 126 => ⟨S_, .i32⟩
  | 127 => ⟨S4196352, .i32⟩
  | _ => ⟨S2048x32, .f32⟩

abbrev hbmTy0_1 (i : Nat) : BufTy := match i % 128 with
  | 0 => ⟨S4196352, .i1⟩
  | 1 => ⟨S_, .i32⟩
  | 2 => ⟨S4196352, .i32⟩
  | 3 => ⟨S4196352, .i32⟩
  | 4 => ⟨S4196352, .i32⟩
  | 5 => ⟨S4196352x1, .i32⟩
  | 6 => ⟨S2048, .f32⟩
  | 7 => ⟨S_, .f32⟩
  | 8 => ⟨S2048, .f32⟩
  | 9 => ⟨S2048, .i1⟩
  | 10 => ⟨S_, .f32⟩
  | 11 => ⟨S2048, .f32⟩
  | 12 => ⟨S2048, .i1⟩
  | 13 => ⟨S_, .f32⟩
  | 14 => ⟨S_, .f32⟩
  | 15 => ⟨S2048, .f32⟩
  | 16 => ⟨S2048, .f32⟩
  | 17 => ⟨S2048, .f32⟩
  | 18 => ⟨S_, .f32⟩
  | 19 => ⟨S2048, .f32⟩
  | 20 => ⟨S2048, .f32⟩
  | 21 => ⟨S_, .f32⟩
  | 22 => ⟨S_, .f32⟩
  | 23 => ⟨S2048, .f32⟩
  | 24 => ⟨S2048, .f32⟩
  | 25 => ⟨S_, .i32⟩
  | 26 => ⟨S4196352, .i32⟩
  | 27 => ⟨S4196352, .i1⟩
  | 28 => ⟨S_, .i32⟩
  | 29 => ⟨S4196352, .i32⟩
  | 30 => ⟨S4196352, .i32⟩
  | 31 => ⟨S4196352, .i32⟩
  | 32 => ⟨S4196352x1, .i32⟩
  | 33 => ⟨S4196352, .f32⟩
  | 34 => ⟨S4196352, .f32⟩
  | 35 => ⟨S_, .i32⟩
  | 36 => ⟨S4196352, .i32⟩
  | 37 => ⟨S4196352, .i1⟩
  | 38 => ⟨S_, .i32⟩
  | 39 => ⟨S4196352, .i32⟩
  | 40 => ⟨S4196352, .i32⟩
  | 41 => ⟨S4196352, .i32⟩
  | 42 => ⟨S4196352x1, .i32⟩
  | 43 => ⟨S4196352, .f32⟩
  | 44 => ⟨S4196352, .f32⟩
  | 45 => ⟨S_, .f32⟩
  | 46 => ⟨S2048x16, .f32⟩
  | 47 => ⟨S4196352x1, .f32⟩
  | 48 => ⟨S_, .i32⟩
  | 49 => ⟨S4196352, .i32⟩
  | 50 => ⟨S4196352, .i1⟩
  | 51 => ⟨S_, .i32⟩
  | 52 => ⟨S4196352, .i32⟩
  | 53 => ⟨S4196352, .i32⟩
  | 54 => ⟨S4196352, .i32⟩
  | 55 => ⟨S4196352x1, .i32⟩
  | 56 => ⟨S4196352x16, .f32⟩
  | 57 => ⟨S4196352x16, .f32⟩
  | 58 => ⟨S4196352x16, .f32⟩
  | 59 => ⟨S_, .i32⟩
  | 60 => ⟨S4196352, .i32⟩
  | 61 => ⟨S4196352, .i1⟩
  | 62 => ⟨S_, .i32⟩
  | 63 => ⟨S4196352, .i32⟩
  | 64 => ⟨S4196352, .i32⟩
  | 65 => ⟨S4196352, .i32⟩
  | 66 => ⟨S4196352x1, .i32⟩
  | 67 => ⟨S2048x16, .f32⟩
  | 68 => ⟨S1x16, .f32⟩
  | 69 => ⟨S2048x16, .f32⟩
  | 70 => ⟨S2048x16, .f32⟩
  | 71 => ⟨S_, .f32⟩
  | 72 => ⟨S2048x16, .f32⟩
  | 73 => ⟨S2048x16, .f32⟩
  | 74 => ⟨S_, .f32⟩
  | 75 => ⟨S2048, .f32⟩
  | 76 => ⟨S_, .f32⟩
  | 77 => ⟨S2048, .f32⟩
  | 78 => ⟨S2048, .f32⟩
  | 79 => ⟨S2048x1, .f32⟩
  | 80 => ⟨S2048x16, .f32⟩
  | 81 => ⟨S2048x16, .f32⟩
  | 82 => ⟨S2048x16, .f32⟩
  | 83 => ⟨S_, .f32⟩
  | 84 => ⟨S2048, .f32⟩
  | 85 => ⟨S2048x1, .f32⟩
  | 86 => ⟨S2048x1, .f32⟩
  | 87 => ⟨S2048x16, .f32⟩
  | 88 => ⟨S2048x16, .f32⟩
  | _ => ⟨S2048x32, .f32⟩

abbrev hbmTy (i : Nat) : BufTy := match i / 128 with
  | 0 => hbmTy0_0 i
  | 1 => hbmTy0_1 i
  | _ => ⟨S2048x32, .f32⟩

abbrev bufTy : (tb : Table) → Fin (tcTables nBuf tb) → BufTy
  | .hbm, ⟨i, _⟩ => hbmTy i
  | _, _ => ⟨S2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_call0_v0 : Ref sig .tc := ⟨.hbm, 56, rfl⟩
abbrev main_call0_v1 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_call1_v0 : Ref sig .tc := ⟨.hbm, 64, rfl⟩
abbrev main_call1_v1 : Ref sig .tc := ⟨.hbm, 65, rfl⟩
abbrev main_v43 : Ref sig .tc := ⟨.hbm, 66, rfl⟩
abbrev main_c_11 : Ref sig .tc := ⟨.hbm, 67, rfl⟩
abbrev main_v44 : Ref sig .tc := ⟨.hbm, 68, rfl⟩
abbrev main_v45 : Ref sig .tc := ⟨.hbm, 69, rfl⟩
abbrev main_c_12 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_13 : Ref sig .tc := ⟨.hbm, 77, rfl⟩
abbrev main_v52 : Ref sig .tc := ⟨.hbm, 78, rfl⟩
abbrev main_v53 : Ref sig .tc := ⟨.hbm, 79, rfl⟩
abbrev main_c_14 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_15 : Ref sig .tc := ⟨.hbm, 87, rfl⟩
abbrev main_v60 : Ref sig .tc := ⟨.hbm, 88, rfl⟩
abbrev main_v61 : Ref sig .tc := ⟨.hbm, 89, rfl⟩
abbrev main_c_16 : Ref sig .tc := ⟨.hbm, 90, rfl⟩
abbrev main_v62 : Ref sig .tc := ⟨.hbm, 91, rfl⟩
abbrev main_v63 : Ref sig .tc := ⟨.hbm, 92, rfl⟩
abbrev main_c_17 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_18 : Ref sig .tc := ⟨.hbm, 101, rfl⟩
abbrev main_v71 : Ref sig .tc := ⟨.hbm, 102, rfl⟩
abbrev main_v72 : Ref sig .tc := ⟨.hbm, 103, rfl⟩
abbrev main_c_19 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_call2_cst : Ref sig .tc := ⟨.hbm, 113, rfl⟩
abbrev main_call2_v0 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_20 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_21 : Ref sig .tc := ⟨.hbm, 124, rfl⟩
abbrev main_v89 : Ref sig .tc := ⟨.hbm, 125, rfl⟩
abbrev main_c_22 : Ref sig .tc := ⟨.hbm, 126, rfl⟩
abbrev main_v90 : Ref sig .tc := ⟨.hbm, 127, rfl⟩
abbrev main_v91 : Ref sig .tc := ⟨.hbm, 128, rfl⟩
abbrev main_c_23 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_24 : Ref sig .tc := ⟨.hbm, 135, rfl⟩
abbrev main_v97 : Ref sig .tc := ⟨.hbm, 136, rfl⟩
abbrev main_v98 : Ref sig .tc := ⟨.hbm, 137, rfl⟩
abbrev main_cst_25 : Ref sig .tc := ⟨.hbm, 138, rfl⟩
abbrev main_v99 : Ref sig .tc := ⟨.hbm, 139, rfl⟩
abbrev main_v100 : Ref sig .tc := ⟨.hbm, 140, rfl⟩
abbrev main_cst_26 : Ref sig .tc := ⟨.hbm, 141, rfl⟩
abbrev main_call3_v0 : Ref sig .tc := ⟨.hbm, 142, rfl⟩
abbrev main_call3_v1 : Ref sig .tc := ⟨.hbm, 143, rfl⟩
abbrev main_v101 : Ref sig .tc := ⟨.hbm, 144, rfl⟩
abbrev main_v102 : Ref sig .tc := ⟨.hbm, 145, rfl⟩
abbrev main_cst_27 : Ref sig .tc := ⟨.hbm, 146, rfl⟩
abbrev main_v103 : Ref sig .tc := ⟨.hbm, 147, rfl⟩
abbrev main_v104 : Ref sig .tc := ⟨.hbm, 148, rfl⟩
abbrev main_cst_28 : Ref sig .tc := ⟨.hbm, 149, rfl⟩
abbrev main_call4_v0 : Ref sig .tc := ⟨.hbm, 150, rfl⟩
abbrev main_call4_v1 : Ref sig .tc := ⟨.hbm, 151, rfl⟩
abbrev main_v105 : Ref sig .tc := ⟨.hbm, 152, rfl⟩
abbrev main_c_29 : Ref sig .tc := ⟨.hbm, 153, rfl⟩
abbrev main_v106 : Ref sig .tc := ⟨.hbm, 154, rfl⟩
abbrev main_v107 : Ref sig .tc := ⟨.hbm, 155, rfl⟩
abbrev main_c_30 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_c_31 : Ref sig .tc := ⟨.hbm, 163, rfl⟩
abbrev main_v114 : Ref sig .tc := ⟨.hbm, 164, rfl⟩
abbrev main_v115 : Ref sig .tc := ⟨.hbm, 165, rfl⟩
abbrev main_c_32 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_cst_33 : Ref sig .tc := ⟨.hbm, 173, rfl⟩
abbrev main_v122 : Ref sig .tc := ⟨.hbm, 174, rfl⟩
abbrev main_v123 : Ref sig .tc := ⟨.hbm, 175, rfl⟩
abbrev main_c_34 : Ref sig .tc := ⟨.hbm, 176, rfl⟩
abbrev main_v124 : Ref sig .tc := ⟨.hbm, 177, rfl⟩
abbrev main_v125 : Ref sig .tc := ⟨.hbm, 178, rfl⟩
abbrev main_c_35 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_c_36 : Ref sig .tc := ⟨.hbm, 187, rfl⟩
abbrev main_v133 : Ref sig .tc := ⟨.hbm, 188, rfl⟩
abbrev main_v134 : Ref sig .tc := ⟨.hbm, 189, rfl⟩
abbrev main_c_37 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_cst_38 : Ref sig .tc := ⟨.hbm, 199, rfl⟩
abbrev main_v143 : Ref sig .tc := ⟨.hbm, 200, rfl⟩
abbrev main_v144 : Ref sig .tc := ⟨.hbm, 201, rfl⟩
abbrev main_call5_cst : Ref sig .tc := ⟨.hbm, 202, rfl⟩
abbrev main_call5_v0 : Ref sig .tc := ⟨.hbm, 203, rfl⟩
abbrev main_call5_cst_0 : Ref sig .tc := ⟨.hbm, 204, rfl⟩
abbrev main_call5_v1 : Ref sig .tc := ⟨.hbm, 205, rfl⟩
abbrev main_call5_v2 : Ref sig .tc := ⟨.hbm, 206, rfl⟩
abbrev main_call5_v3 : Ref sig .tc := ⟨.hbm, 207, rfl⟩
abbrev main_call5_v4 : Ref sig .tc := ⟨.hbm, 208, rfl⟩
abbrev main_call5_v5 : Ref sig .tc := ⟨.hbm, 209, rfl⟩
abbrev main_call5_v6 : Ref sig .tc := ⟨.hbm, 210, rfl⟩
abbrev main_call5_cst_1 : Ref sig .tc := ⟨.hbm, 211, rfl⟩
abbrev main_call5_v7 : Ref sig .tc := ⟨.hbm, 212, rfl⟩
abbrev main_call5_v8 : Ref sig .tc := ⟨.hbm, 213, rfl⟩
abbrev main_call5_v9 : Ref sig .tc := ⟨.hbm, 214, rfl⟩
abbrev main_call5_v10 : Ref sig .tc := ⟨.hbm, 215, rfl⟩
abbrev main_v145 : Ref sig .tc := ⟨.hbm, 216, rfl⟩

abbrev nD : Nat := 1
abbrev τ : Topo := Topo.v7x

variable {F : FTy → Type} [FloatOps F]

class Facts₀ : Prop where
  bcast_S2048_S2048x2048_0 : S2048.BroadcastsInDim S2048x2048 (![0] : Fin 1 → Fin S2048x2048.rank)
  shapeCasts_S2048x2048_S4194304 : S2048x2048.ShapeCasts S4194304
  shapeCasts_S2048_S1x2048 : S2048.ShapeCasts S1x2048
  bcast_S1x2048_S2048x2048_0_1 : S1x2048.BroadcastsInDim S2048x2048 (![0, 1] : Fin 2 → Fin S2048x2048.rank)
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  concatenates_S4194304_S2048_S4196352_d0 : Shape.Concatenates [S4194304, S2048] S4196352 0
  bcast_S_S2048 : S_.BroadcastsInDim S2048 (![] : Fin 0 → Fin S2048.rank)
  transposes_S32x32_S32x32_1_0 : S32x32.Transposes [1, 0] S32x32
  bcast_S_S4196352 : S_.BroadcastsInDim S4196352 (![] : Fin 0 → Fin S4196352.rank)
  bcast_S4196352_S4196352x1_0 : S4196352.BroadcastsInDim S4196352x1 (![0] : Fin 1 → Fin S4196352x1.rank)
  bcast_S_S2048x32 : S_.BroadcastsInDim S2048x32 (![] : Fin 0 → Fin S2048x32.rank)
  bcast_S4196352x1_S4196352x32_0_1 : S4196352x1.BroadcastsInDim S4196352x32 (![0, 1] : Fin 2 → Fin S4196352x32.rank)
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  transposes_S16x32_S32x16_1_0 : S16x32.Transposes [1, 0] S32x16
  bcast_S_S2048x16 : S_.BroadcastsInDim S2048x16 (![] : Fin 0 → Fin S2048x16.rank)
  bcast_S4196352x1_S4196352x16_0_1 : S4196352x1.BroadcastsInDim S4196352x16 (![0, 1] : Fin 2 → Fin S4196352x16.rank)
  bcast_S16_S1x16_1 : S16.BroadcastsInDim S1x16 (![1] : Fin 1 → Fin S1x16.rank)
  bcast_S1x16_S2048x16_0_1 : S1x16.BroadcastsInDim S2048x16 (![0, 1] : Fin 2 → Fin S2048x16.rank)
  reducesTo_S2048x16_S2048_d1 : S2048x16.ReducesTo [1] S2048
  h_S_ : 0 < S_.numel
  bcast_S2048_S2048x1_0 : S2048.BroadcastsInDim S2048x1 (![0] : Fin 1 → Fin S2048x1.rank)
  bcast_S2048x1_S2048x16_0_1 : S2048x1.BroadcastsInDim S2048x16 (![0, 1] : Fin 2 → Fin S2048x16.rank)
  gather_S2048x2048_S4194304x2_S4194304_n_01_n_n_01_1_11_wf : GatherDims.WF S2048x2048 S4194304x2 S4194304 [] [0, 1] [] [0, 1] [] 1 ![1, 1]
  dot_S2048x32_S32x32_S2048x32_1_0_0_1_n_n_wf : DotDims.WF S2048x32 S32x32 S2048x32 [1] [0] [0] [1] [] []
  scatter_S2048_S4196352x1_S4196352_n_0_0_1_wf : ScatterDims.WF S2048 S4196352x1 S4196352 [] [0] [0] 1
  gather_S2048_S4196352x1_S4196352_n_0_n_n_0_1_1_wf : GatherDims.WF S2048 S4196352x1 S4196352 [] [0] [] [0] [] 1 ![1]
  gather_S2048x32_S4196352x1_S4196352x32_1_0_n_n_0_1_132_wf : GatherDims.WF S2048x32 S4196352x1 S4196352x32 [1] [0] [] [0] [] 1 ![1, 32]
  scatter_S2048x32_S4196352x1_S4196352x32_1_0_0_1_wf : ScatterDims.WF S2048x32 S4196352x1 S4196352x32 [1] [0] [0] 1
  dot_S2048x32_S32x16_S2048x16_1_0_0_1_n_n_wf : DotDims.WF S2048x32 S32x16 S2048x16 [1] [0] [0] [1] [] []
  gather_S2048x16_S4196352x1_S4196352x16_1_0_n_n_0_1_116_wf : GatherDims.WF S2048x16 S4196352x1 S4196352x16 [1] [0] [] [0] [] 1 ![1, 16]
  scatter_S2048x16_S4196352x1_S4196352x16_1_0_0_1_wf : ScatterDims.WF S2048x16 S4196352x1 S4196352x16 [1] [0] [0] 1

variable [Facts₀]

def gather_S2048x2048_S4194304x2_S4194304_n_01_n_n_01_1_11 : GatherDims S2048x2048 S4194304x2 S4194304 where
  offsetDims := []
  collapsedSliceDims := [0, 1]
  operandBatchingDims := []
  startIndicesBatchingDims := []
  startIndexMap := [0, 1]
  indexVectorDim := 1
  sliceSizes := ![1, 1]
  wf := gather_S2048x2048_S4194304x2_S4194304_n_01_n_n_01_1_11_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def scatter_S2048_S4196352x1_S4196352_n_0_0_1 : ScatterDims S2048 S4196352x1 S4196352 where
  updateWindowDims := []
  insertedWindowDims := [0]
  scatterDimsToOperandDims := [0]
  indexVectorDim := 1
  wf := scatter_S2048_S4196352x1_S4196352_n_0_0_1_wf
def gather_S2048_S4196352x1_S4196352_n_0_n_n_0_1_1 : GatherDims S2048 S4196352x1 S4196352 where
  offsetDims := []
  collapsedSliceDims := [0]
  operandBatchingDims := []
  startIndicesBatchingDims := []
  startIndexMap := [0]
  indexVectorDim := 1
  sliceSizes := ![1]
  wf := gather_S2048_S4196352x1_S4196352_n_0_n_n_0_1_1_wf
def gather_S2048x32_S4196352x1_S4196352x32_1_0_n_n_0_1_132 : GatherDims S2048x32 S4196352x1 S4196352x32 where
  offsetDims := [1]
  collapsedSliceDims := [0]
  operandBatchingDims := []
  startIndicesBatchingDims := []
  startIndexMap := [0]
  indexVectorDim := 1
  sliceSizes := ![1, 32]
  wf := gather_S2048x32_S4196352x1_S4196352x32_1_0_n_n_0_1_132_wf
def scatter_S2048x32_S4196352x1_S4196352x32_1_0_0_1 : ScatterDims S2048x32 S4196352x1 S4196352x32 where
  updateWindowDims := [1]
  insertedWindowDims := [0]
  scatterDimsToOperandDims := [0]
  indexVectorDim := 1
  wf := scatter_S2048x32_S4196352x1_S4196352x32_1_0_0_1_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def gather_S2048x16_S4196352x1_S4196352x16_1_0_n_n_0_1_116 : GatherDims S2048x16 S4196352x1 S4196352x16 where
  offsetDims := [1]
  collapsedSliceDims := [0]
  operandBatchingDims := []
  startIndicesBatchingDims := []
  startIndexMap := [0]
  indexVectorDim := 1
  sliceSizes := ![1, 16]
  wf := gather_S2048x16_S4196352x1_S4196352x16_1_0_n_n_0_1_116_wf
def scatter_S2048x16_S4196352x1_S4196352x16_1_0_0_1 : ScatterDims S2048x16 S4196352x1 S4196352x16 where
  updateWindowDims := [1]
  insertedWindowDims := [0]
  scatterDimsToOperandDims := [0]
  indexVectorDim := 1
  wf := scatter_S2048x16_S4196352x1_S4196352x16_1_0_0_1_wf

class Facts : Prop extends Facts₀ where

variable [Facts]
-- ==== Proof.LibEdgeSum.lean ====
/-
  Sums over the edges of a dense graph with self-loops, and the algebra of the symmetric degree normalisation on the
  extended reals.

  The graph has 2048 nodes. Its edge list is flat: the first 2048² edges are the dense ones, edge `e` running from
  node `e / 2048` to node `e % 2048`, and the last 2048 edges are the self-loops, one per node. A sum over the edges
  that arrive at a node `d` is therefore a sum over all source nodes plus one self-loop term. The proof never lists
  the edges: the set of edges into `d` is described as the image of the source nodes under `s ↦ s · 2048 + d`
  together with one more point, and the sum is moved along that description.

  On the extended reals multiplication does not distribute over addition in general (`⊤ + ⊥` is `⊥`), but a
  non-negative finite factor does distribute, over sums with infinite terms too. The normalising factor
  `deg^(-1/2)` of a node of positive degree is such a factor: it is zero at infinite degree and a positive real
  otherwise, and it is also what `1 / √deg` means there.
-/
import Idealize.ShloMosaic.PureOps.Ideal

noncomputable section

namespace Gcn

open Idealize.ShloMosaic

/-- The flat edge list of a dense graph on 2048 nodes with a self-loop per node: edge `e < 2048²` runs from node
    `e / 2048` to node `e % 2048`; edge `2048² + i` is node `i`'s self-loop. This is the source node of edge `e`. -/
def srcOf (e : Fin 4196352) : Nat := if e.val < 4194304 then e.val / 2048 else e.val - 4194304

/-- The node at which edge `e` of the flat edge list arrives: `e % 2048` for a dense edge, `i` for the self-loop
    `2048² + i`. -/
def dstOf (e : Fin 4196352) : Nat := if e.val < 4194304 then e.val % 2048 else e.val - 4194304

/-- The edges into node `d` are one per source node, `s · 2048 + d`, plus `d`'s self-loop `2048² + d`: a sum over
    them is a sum over the source nodes plus the self-loop's term. The values may lie in any commutative monoid. -/
theorem edge_sum {M : Type} [AddCommMonoid M] (g : Fin 4196352 → M) (d : Fin 2048) :
    ∑ e ∈ Finset.univ.filter (fun e : Fin 4196352 => dstOf e = d.val), g e
      = (∑ s : Fin 2048, g ⟨s.val * 2048 + d.val, by have := s.isLt; have := d.isLt; omega⟩)
        + g ⟨4194304 + d.val, by have := d.isLt; omega⟩ := by
  have hd := d.isLt
  -- the dense edge from `s` into `d`, and `d`'s self-loop
  let dense : Fin 2048 → Fin 4196352 := fun s => ⟨s.val * 2048 + d.val, by have := s.isLt; omega⟩
  let loop : Fin 4196352 := ⟨4194304 + d.val, by omega⟩
  -- the edges into `d` are exactly these: division and remainder by 2048 are linear arithmetic
  have hset : Finset.univ.filter (fun e : Fin 4196352 => dstOf e = d.val)
      = Finset.univ.image dense ∪ {loop} := by
    ext e
    have he := e.isLt
    rw [Finset.mem_filter_univ, Finset.mem_union, Finset.mem_image, Finset.mem_singleton]
    unfold dstOf
    constructor
    · intro h
      by_cases hlt : e.val < 4194304
      · rw [if_pos hlt] at h
        left
        refine ⟨⟨e.val / 2048, by omega⟩, Finset.mem_univ _, ?_⟩
        apply Fin.ext
        show e.val / 2048 * 2048 + d.val = e.val
        omega
      · rw [if_neg hlt] at h
        right
        apply Fin.ext
        show e.val = 4194304 + d.val
        omega
    · rintro (⟨s, -, rfl⟩ | rfl)
      · have hs := s.isLt
        show (if s.val * 2048 + d.val < 4194304 then (s.val * 2048 + d.val) % 2048
          else s.val * 2048 + d.val - 4194304) = d.val
        rw [if_pos (by omega)]
        omega
      · show (if 4194304 + d.val < 4194304 then (4194304 + d.val) % 2048
          else 4194304 + d.val - 4194304) = d.val
        rw [if_neg (by omega)]
        omega
  -- the self-loop is not a dense edge
  have hdisj : Disjoint (Finset.univ.image dense) {loop} := by
    rw [Finset.disjoint_singleton_right, Finset.mem_image]
    rintro ⟨s, -, hs⟩
    have hs' : s.val * 2048 + d.val = 4194304 + d.val := congrArg Fin.val hs
    have := s.isLt
    omega
  -- distinct sources give distinct dense edges
  have hinj : ∀ s ∈ (Finset.univ : Finset (Fin 2048)), ∀ t ∈ (Finset.univ : Finset (Fin 2048)),
      dense s = dense t → s = t := by
    intro s _ t _ hst
    have hst' : s.val * 2048 + d.val = t.val * 2048 + d.val := congrArg Fin.val hst
    apply Fin.ext
    omega
  rw [hset, Finset.sum_union hdisj, Finset.sum_image hinj, Finset.sum_singleton]

/-- A non-negative finite factor distributes over any finite sum of extended reals, infinite terms included. -/
theorem mul_sum_of_nonneg {ι : Type} (s : Finset ι) (r : EReal) (hr : 0 ≤ r) (hr' : r ≠ ⊤) (f : ι → EReal) :
    r * ∑ i ∈ s, f i = ∑ i ∈ s, r * f i := by
  classical
  induction s using Finset.induction_on with
  | empty => simp
  | insert a s ha ih =>
    rw [Finset.sum_insert ha, Finset.sum_insert ha, EReal.left_distrib_of_nonneg_of_ne_top hr hr', ih]

/-- `1 / √x` is `x^(-1/2)` for positive `x`, `+∞` included: both are zero there. -/
theorem div_one_sqrt {x : EReal} (hx : 0 < x) : Ideal.div 1 (Ideal.sqrt x) = Ideal.rsqrt x := by
  induction x using EReal.rec with
  | bot => exact absurd hx (not_lt_of_ge bot_le)
  | top =>
    -- `√⊤ = ⊤`, whose inverse is zero
    rw [Ideal.sqrt_top, Ideal.rsqrt_top, Ideal.div, if_neg EReal.top_ne_zero, EReal.inv_top, mul_zero]
  | coe r =>
    have hr : 0 < r := by exact_mod_cast hx
    have hs : Real.sqrt r ≠ 0 := (Real.sqrt_pos.mpr hr).ne'
    rw [Ideal.sqrt_coe, if_neg (not_lt.mpr hr.le), Ideal.rsqrt_coe, if_neg (not_lt.mpr hr.le), if_neg hr.ne',
      Ideal.div, if_neg (by exact_mod_cast hs), one_mul, EReal.coe_inv]

/-- `x^(-1/2)` is non-negative for positive `x`. -/
theorem rsqrt_nonneg_of_pos {x : EReal} (hx : 0 < x) : 0 ≤ Ideal.rsqrt x := by
  induction x using EReal.rec with
  | bot => exact absurd hx (not_lt_of_ge bot_le)
  | top => rw [Ideal.rsqrt_top]
  | coe r =>
    have hr : 0 < r := by exact_mod_cast hx
    rw [Ideal.rsqrt_coe, if_neg (not_lt.mpr hr.le), if_neg hr.ne']
    exact_mod_cast inv_nonneg.mpr (Real.sqrt_nonneg r)

/-- `x^(-1/2)` is finite for positive `x`: it is infinite only at zero. -/
theorem rsqrt_ne_top_of_pos {x : EReal} (hx : 0 < x) : Ideal.rsqrt x ≠ ⊤ := by
  induction x using EReal.rec with
  | bot => exact absurd hx (not_lt_of_ge bot_le)
  | top => rw [Ideal.rsqrt_top]; exact EReal.zero_ne_top
  | coe r =>
    have hr : 0 < r := by exact_mod_cast hx
    rw [Ideal.rsqrt_coe, if_neg (not_lt.mpr hr.le), if_neg hr.ne']
    exact EReal.coe_ne_top _

end Gcn

end
-- ==== Proof.LibRowGatherScatter.lean ====
/-
  A gather of rows and an accumulating scatter of rows, read at an entry.

  `x[rows]` for a matrix `x : [N, C]` and row numbers `rows : [R, 1]` lowers to a gather whose result
  `[R, C]` holds, at `(e, c)`, the entry `(ρ e, c)` of `x`, where `ρ e` is the row number `rows[e, 0]`
  read as a signed integer and clamped into `[0, N − 1]`: the column is kept, the row is looked up.

  `segment_sum(upd, rows)` for updates `upd : [R, C]` lowers to an accumulating scatter into `[N, C]`:
  update `(e, c)` lands on entry `(rows[e, 0], c)` when that row number, read signed and NOT clamped,
  lies in `[0, N)`, and is dropped otherwise. So entry `(v, k)` of the result is the operand's entry plus
  the sum, over the update rows `e` whose row number is `v`, of `upd (e, k)`.
-/
import Idealize.ShloMosaic.Lib.ValueIdx
import Idealize.ShloMosaic.PureOps.Ideal
import Idealize.ShloMosaic.PureOps.Ideal.Laws

noncomputable section

namespace RowOps

open Idealize.ShloMosaic Idealize.ShloMosaic.ValueIdx

/-- The entry `[e, 0]` of a column of `R` row numbers. -/
abbrev col0 {R : Nat} (e : Fin R) : (⟨2, ![R, 1]⟩ : Shape).Idx := ix2 e (⟨0, Nat.one_pos⟩ : Fin 1)

/-! ## Rows gathered -/

section Gather
variable {α : Type}

/-- The dimension numbers of `x[rows]`: operand `[N, C]`, start indices `[R, 1]`, result `[R, C]`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row of the operand that result row `e` reads: its row number read signed, clamped into `[0, N − 1]`. -/
def gatheredRow {N R w : Nat} (hN : 0 < N) (idx : IVec ⟨2, ![R, 1]⟩ w) (e : Fin R) : Fin N :=
  ⟨min (idx (col0 e)).toInt.toNat (N - 1), by omega⟩

/-- THE ROW GATHER READ AT `(e, c)`: entry `c` of the looked-up row. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c) = x (ix2 (gatheredRow hN idx e) c) := by
  unfold Host.gather
  congr 1
  have h0 : ((rowGatherDims N R C wf).operandIdx (ix2 e c) idx (0 : Fin 2)).val = (gatheredRow hN idx e).val := by
    show (rowGatherDims N R C wf).start (ix2 e c) idx (0 : Fin 2) + (rowGatherDims N R C wf).batchCoord (ix2 e c) (0 : Fin 2)
        + (rowGatherDims N R C wf).offCoord (ix2 e c) (0 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = col0 e := by
      funext b; refine Fin.ext ?_
      match b with
      | ⟨0, _⟩ => rfl
      | ⟨1, _⟩ => rfl
    rw [hsi]
    rfl
  have h1 : ((rowGatherDims N R C wf).operandIdx (ix2 e c) idx (1 : Fin 2)).val = c.val := by
    show (rowGatherDims N R C wf).start (ix2 e c) idx (1 : Fin 2) + (rowGatherDims N R C wf).batchCoord (ix2 e c) (1 : Fin 2)
        + (rowGatherDims N R C wf).offCoord (ix2 e c) (1 : Fin 2) = _
    rw [GatherDims.batchCoord_eq_zero _ _ _ List.not_mem_nil, Nat.add_zero]
    have hn : (1 : Fin 2) ∉ (rowGatherDims N R C wf).startIndexMap := fun h =>
      absurd (List.mem_singleton.mp h) (by decide : ¬ (1 : Fin 2) = 0)
    have hk : (1 : Fin 2) ∈ (rowGatherDims N R C wf).sKept :=
      (GatherDims.mem_sKept _ _).mpr ⟨fun h => absurd (List.mem_singleton.mp h) (by decide : ¬ (1 : Fin 2) = 0),
        List.not_mem_nil⟩
    unfold GatherDims.start GatherDims.offCoord
    rw [dif_neg hn, dif_pos hk, Nat.zero_add]
    rfl
  funext a
  refine Fin.ext ?_
  match a with
  | ⟨0, _⟩ => exact h0
  | ⟨1, _⟩ => exact h1

end Gather

/-! ## Rows scattered and accumulated -/

section Scatter

/-- The dimension numbers of `segment_sum` over rows: operand `[N, C]`, scatter indices `[R, 1]`, updates `[R, C]`. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)
  (idx : IVec ⟨2, ![R, 1]⟩ w)

/-- On the row axis the window of update `(e, c)` starts at its row number, read signed. -/
theorem start_row (e : Fin R) (c : Fin C) :
    (rowScatterDims N R C wf).start (ix2 e c) idx (0 : Fin 2) = (idx (col0 e)).toInt := by
  unfold ScatterDims.start
  rw [dif_pos (show (0 : Fin 2) ∈ (rowScatterDims N R C wf).scatterDimsToOperandDims from List.mem_singleton.mpr rfl)]
  have hsi : (rowScatterDims N R C wf).siIdx (ix2 e c)
      ⟨List.idxOf (0 : Fin 2) (rowScatterDims N R C wf).scatterDimsToOperandDims,
        List.idxOf_lt_length_iff.2 (List.mem_singleton.mpr rfl)⟩ = col0 e := by
    funext b; refine Fin.ext ?_
    match b with
    | ⟨0, _⟩ => rfl
    | ⟨1, _⟩ => rfl
  rw [hsi]

/-- On the column axis it starts at zero. -/
theorem start_col (e : Fin R) (c : Fin C) : (rowScatterDims N R C wf).start (ix2 e c) idx (1 : Fin 2) = 0 := by
  unfold ScatterDims.start
  rw [dif_neg (fun h => absurd (List.mem_singleton.mp h) (by decide : ¬ (1 : Fin 2) = 0))]

/-- The row axis is inserted: the window has no extent there. -/
theorem window_row (e : Fin R) (c : Fin C) : (rowScatterDims N R C wf).window (ix2 e c) (0 : Fin 2) = 0 := by
  unfold ScatterDims.window
  rw [dif_neg]
  intro h
  exact (List.mem_filter.mp h).2 |> fun h' => by simp at h'

/-- On the column axis the window coordinate is the update's column. -/
theorem window_col (e : Fin R) (c : Fin C) : (rowScatterDims N R C wf).window (ix2 e c) (1 : Fin 2) = c.val := by
  unfold ScatterDims.window
  rw [dif_pos (show (1 : Fin 2) ∈ (rowScatterDims N R C wf).sKept from
    List.mem_filter.mpr ⟨List.mem_finRange _, by simp⟩)]
  rfl

/-- WHERE UPDATE `(e, c)` LANDS: on `(v, k)` exactly when its row number is `v` and its column is `k`. -/
theorem resultIdx?_rows (e : Fin R) (c : Fin C) (v : Fin N) (k : Fin C) :
    (rowScatterDims N R C wf).resultIdx? (ix2 e c) idx = some (ix2 v k)
      ↔ (idx (col0 e)).toInt = (v.val : Int) ∧ c = k := by
  have hs0 := start_row wf idx e c
  have hs1 := start_col wf idx e c
  have hw0 := window_row wf e c
  have hw1 := window_col wf e c
  unfold ScatterDims.resultIdx?
  split
  · rename_i h
    rw [Option.some.injEq]
    constructor
    · intro hf
      have h0 := congrArg Fin.val (congrFun hf (0 : Fin 2))
      have h1 := congrArg Fin.val (congrFun hf (1 : Fin 2))
      have hp := (h (0 : Fin 2)).1
      simp only [hs0, hw0, hs1, hw1] at h0 h1 hp
      refine ⟨?_, Fin.ext ?_⟩
      · have : ((idx (col0 e)).toInt + ((0 : Nat) : Int)).toNat = v.val := h0
        omega
      · have : ((0 : Int) + (c.val : Int)).toNat = k.val := h1
        omega
    · rintro ⟨hv, rfl⟩
      funext a
      refine Fin.ext ?_
      match a with
      | ⟨0, _⟩ =>
        show ((rowScatterDims N R C wf).start (ix2 e c) idx (0 : Fin 2)
          + ((rowScatterDims N R C wf).window (ix2 e c) (0 : Fin 2) : Int)).toNat = v.val
        rw [hs0, hw0, hv]; simp
      | ⟨1, _⟩ =>
        show ((rowScatterDims N R C wf).start (ix2 e c) idx (1 : Fin 2)
          + ((rowScatterDims N R C wf).window (ix2 e c) (1 : Fin 2) : Int)).toNat = c.val
        rw [hs1, hw1]; simp
  · rename_i h
    constructor
    · intro hf; cases hf
    · rintro ⟨hv, rfl⟩
      refine (h fun a => ?_).elim
      match a with
      | ⟨0, _⟩ =>
        show 0 ≤ (rowScatterDims N R C wf).start (ix2 e c) idx (0 : Fin 2)
            + ((rowScatterDims N R C wf).window (ix2 e c) (0 : Fin 2) : Int)
          ∧ (rowScatterDims N R C wf).start (ix2 e c) idx (0 : Fin 2)
            + ((rowScatterDims N R C wf).window (ix2 e c) (0 : Fin 2) : Int) < (N : Int)
        rw [hs0, hw0, hv]
        have := v.isLt
        omega
      | ⟨1, _⟩ =>
        show 0 ≤ (rowScatterDims N R C wf).start (ix2 e c) idx (1 : Fin 2)
            + ((rowScatterDims N R C wf).window (ix2 e c) (1 : Fin 2) : Int)
          ∧ (rowScatterDims N R C wf).start (ix2 e c) idx (1 : Fin 2)
            + ((rowScatterDims N R C wf).window (ix2 e c) (1 : Fin 2) : Int) < (C : Int)
        rw [hs1, hw1]
        have := c.isLt
        omega

/-- The update rows whose row number is `v`. -/
def rowsOnto (v : Fin N) : Finset (Fin R) := Finset.univ.filter fun e => (idx (col0 e)).toInt = (v.val : Int)

/-- THE ROW SCATTER READ AT `(v, k)`, at the ideal instance: the operand's entry plus the sum, over the update
    rows whose row number is `v`, of their entry in column `k`. -/
theorem scatterAdd_rows_apply {φ : FTy} (x : FVec Ideal ⟨2, ![N, C]⟩ φ) (upd : FVec Ideal ⟨2, ![R, C]⟩ φ)
    (v : Fin N) (k : Fin C) :
    Host.scatterAdd (rowScatterDims N R C wf) x idx upd (ix2 v k)
      = x (ix2 v k) + ∑ e ∈ rowsOnto idx v, upd (ix2 e k) := by
  show Ideal.hostScatterAdd (rowScatterDims N R C wf) x idx upd (ix2 v k) = _
  unfold Ideal.hostScatterAdd rowsOnto
  congr 1
  rw [Finset.sum_filter, sum_idx2, Finset.sum_filter]
  refine Finset.sum_congr rfl fun e _ => ?_
  simp only [resultIdx?_rows wf idx e _ v k]
  by_cases hv : (idx (col0 e)).toInt = (v.val : Int)
  · simp only [hv, true_and, if_true]
    rw [Finset.sum_ite_eq' Finset.univ k fun c => upd (ix2 e c)]
    simp
  · simp only [hv, false_and, if_false]
    exact Finset.sum_const_zero

end Scatter

end RowOps

end
-- ==== Proof.LibVecScatter.lean ====
/-
  An accumulating scatter of a vector, read at an entry, and a lookup of matrix entries by pairs of coordinates.

  `zeros(N).at[rows].add(upd)` for updates `upd : [R]` and row numbers `rows : [R, 1]` lowers to an accumulating
  scatter into `[N]`: update `e` lands on entry `rows[e, 0]` when that number, read signed and NOT clamped, lies
  in `[0, N)`, and is dropped otherwise. So entry `v` of the result is the operand's entry plus the sum, over the
  updates `e` whose row number is `v`, of `upd e`.

  `x[r, c]` for a matrix `x : [N, M]` and a list of coordinate pairs `rc : [R, 2]` lowers to a gather whose result
  `[R]` holds, at `e`, the entry of `x` at row `rc[e, 0]` and column `rc[e, 1]`, each read signed and clamped
  into its axis.
-/
import proofs.«162544_g17308718202953_retrytranche2_243_3_alg».proof.Proof.LibRowGatherScatter

noncomputable section

namespace RowOps

open Idealize.ShloMosaic Idealize.ShloMosaic.ValueIdx

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A vector scattered into and accumulated -/

section VecScatter

/-- The dimension numbers of `.at[rows].add` on a vector: operand `[N]`, scatter indices `[R, 1]`, updates `[R]`. -/
abbrev vecScatterDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)
  (idx : IVec ⟨2, ![R, 1]⟩ w)

/-- The window of update `e` starts at its row number, read signed. -/
theorem vec_start (e : Fin R) :
    (vecScatterDims N R wf).start (ix1 e) idx (0 : Fin 1) = (idx (col0 e)).toInt := by
  unfold ScatterDims.start
  rw [dif_pos (show (0 : Fin 1) ∈ (vecScatterDims N R wf).scatterDimsToOperandDims from List.mem_singleton.mpr rfl)]
  have hsi : (vecScatterDims N R wf).siIdx (ix1 e)
      ⟨List.idxOf (0 : Fin 1) (vecScatterDims N R wf).scatterDimsToOperandDims,
        List.idxOf_lt_length_iff.2 (List.mem_singleton.mpr rfl)⟩ = col0 e := by
    funext b; refine Fin.ext ?_
    match b with
    | ⟨0, _⟩ => rfl
    | ⟨1, _⟩ => rfl
  rw [hsi]

/-- The one axis is inserted: the window has no extent there. -/
theorem vec_window (e : Fin R) : (vecScatterDims N R wf).window (ix1 e) (0 : Fin 1) = 0 := by
  unfold ScatterDims.window
  rw [dif_neg]
  intro h
  exact (List.mem_filter.mp h).2 |> fun h' => by simp at h'

/-- WHERE UPDATE `e` LANDS: on entry `v` exactly when its row number is `v`. -/
theorem resultIdx?_vec (e : Fin R) (v : Fin N) :
    (vecScatterDims N R wf).resultIdx? (ix1 e) idx = some (ix1 v) ↔ (idx (col0 e)).toInt = (v.val : Int) := by
  have hs0 := vec_start wf idx e
  have hw0 := vec_window wf e
  unfold ScatterDims.resultIdx?
  split
  · rename_i h
    rw [Option.some.injEq]
    constructor
    · intro hf
      have h0 := congrArg Fin.val (congrFun hf (0 : Fin 1))
      have hp := (h (0 : Fin 1)).1
      simp only [hs0, hw0] at h0 hp
      have : ((idx (col0 e)).toInt + ((0 : Nat) : Int)).toNat = v.val := h0
      omega
    · intro hv
      funext a
      refine Fin.ext ?_
      match a with
      | ⟨0, _⟩ =>
        show ((vecScatterDims N R wf).start (ix1 e) idx (0 : Fin 1)
          + ((vecScatterDims N R wf).window (ix1 e) (0 : Fin 1) : Int)).toNat = v.val
        rw [hs0, hw0, hv]; simp
  · rename_i h
    constructor
    · intro hf; cases hf
    · intro hv
      refine (h fun a => ?_).elim
      match a with
      | ⟨0, _⟩ =>
        show 0 ≤ (vecScatterDims N R wf).start (ix1 e) idx (0 : Fin 1)
            + ((vecScatterDims N R wf).window (ix1 e) (0 : Fin 1) : Int)
          ∧ (vecScatterDims N R wf).start (ix1 e) idx (0 : Fin 1)
            + ((vecScatterDims N R wf).window (ix1 e) (0 : Fin 1) : Int) < (N : Int)
        rw [hs0, hw0, hv]
        have := v.isLt
        omega

/-- THE VECTOR SCATTER READ AT `v`, at the ideal instance: the operand's entry plus the sum, over the updates
    whose row number is `v`, of the update. -/
theorem scatterAdd_vec_apply {φ : FTy} (x : FVec Ideal ⟨1, ![N]⟩ φ) (upd : FVec Ideal ⟨1, ![R]⟩ φ) (v : Fin N) :
    Host.scatterAdd (vecScatterDims N R wf) x idx upd (ix1 v)
      = x (ix1 v) + ∑ e ∈ rowsOnto idx v, upd (ix1 e) := by
  show Ideal.hostScatterAdd (vecScatterDims N R wf) x idx upd (ix1 v) = _
  unfold Ideal.hostScatterAdd rowsOnto
  congr 1
  rw [Finset.sum_filter, sum_idx1, Finset.sum_filter]
  refine Finset.sum_congr rfl fun e _ => ?_
  simp only [resultIdx?_vec wf idx e v]

end VecScatter

/-! ## Matrix entries looked up by coordinate pairs -/

section PairGather
variable {α : Type}

/-- The dimension numbers of `x[r, c]`: operand `[N, M]`, start indices `[R, 2]`, result `[R]`. -/
abbrev pairGatherDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- THE PAIR GATHER READ AT `e`: the entry at the looked-up row and column, each coordinate read signed and
    clamped into its axis. -/
theorem gather_pairs_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (e : Fin R) :
    Host.gather (pairGatherDims N M R wf) x idx (ix1 e)
      = x (ix2 (⟨min (idx (ix2 e (0 : Fin 2))).toInt.toNat (N - 1), by omega⟩ : Fin N)
               (⟨min (idx (ix2 e (1 : Fin 2))).toInt.toNat (M - 1), by omega⟩ : Fin M)) := by
  unfold Host.gather
  congr 1
  have hk : ∀ a : Fin 2, a ∉ (pairGatherDims N M R wf).sKept := fun a h =>
    ((GatherDims.mem_sKept _ _).mp h).1 (by fin_cases a <;> simp)
  have h0 : ((pairGatherDims N M R wf).operandIdx (ix1 e) idx (0 : Fin 2)).val
      = min (idx (ix2 e (0 : Fin 2))).toInt.toNat (N - 1) := by
    show (pairGatherDims N M R wf).start (ix1 e) idx (0 : Fin 2) + (pairGatherDims N M R wf).batchCoord (ix1 e) (0 : Fin 2)
        + (pairGatherDims N M R wf).offCoord (ix1 e) (0 : Fin 2) = _
    rw [GatherDims.batchCoord_eq_zero _ _ _ List.not_mem_nil, Nat.add_zero,
      GatherDims.offCoord_eq_zero _ _ _ (hk 0), Nat.add_zero]
    unfold GatherDims.start
    rw [dif_pos (show (0 : Fin 2) ∈ (pairGatherDims N M R wf).startIndexMap by simp)]
    have hsi : (pairGatherDims N M R wf).siIdx (ix1 e) ⟨List.idxOf (0 : Fin 2) (pairGatherDims N M R wf).startIndexMap,
        List.idxOf_lt_length_iff.2 (by simp)⟩ = ix2 e (0 : Fin 2) := by
      funext b; refine Fin.ext ?_
      match b with
      | ⟨0, _⟩ => rfl
      | ⟨1, _⟩ => rfl
    rw [hsi]
    rfl
  have h1 : ((pairGatherDims N M R wf).operandIdx (ix1 e) idx (1 : Fin 2)).val
      = min (idx (ix2 e (1 : Fin 2))).toInt.toNat (M - 1) := by
    show (pairGatherDims N M R wf).start (ix1 e) idx (1 : Fin 2) + (pairGatherDims N M R wf).batchCoord (ix1 e) (1 : Fin 2)
        + (pairGatherDims N M R wf).offCoord (ix1 e) (1 : Fin 2) = _
    rw [GatherDims.batchCoord_eq_zero _ _ _ List.not_mem_nil, Nat.add_zero,
      GatherDims.offCoord_eq_zero _ _ _ (hk 1), Nat.add_zero]
    unfold GatherDims.start
    rw [dif_pos (show (1 : Fin 2) ∈ (pairGatherDims N M R wf).startIndexMap by simp)]
    have hsi : (pairGatherDims N M R wf).siIdx (ix1 e) ⟨List.idxOf (1 : Fin 2) (pairGatherDims N M R wf).startIndexMap,
        List.idxOf_lt_length_iff.2 (by simp)⟩ = ix2 e (1 : Fin 2) := by
      funext b; refine Fin.ext ?_
      match b with
      | ⟨0, _⟩ => rfl
      | ⟨1, _⟩ => rfl
    rw [hsi]
    rfl
  funext a
  refine Fin.ext ?_
  match a with
  | ⟨0, _⟩ => exact h0
  | ⟨1, _⟩ => exact h1

end PairGather

end RowOps

end
-- ==== Proof.LibBroadcastInDim.lean ====
/-
  `broadcast_in_dim` read at an index, for the layouts a host program meets when it spreads a per-row or per-column
  quantity over a matrix: a scalar splat to any shape; a vector `[a]` laid out as the column `[a, 1]` or `[b]` as the
  row `[1, b]`; the column and the row spread to `[a, b]`; a vector `[c]` laid out as `[1, 1, c]` and spread to
  `[a, b, c]`. General in the extents and in the element type: each result entry reads the one operand entry that
  shares its coordinates on the axes the operand keeps.
-/
import Idealize.ShloMosaic.Lib.Pipeline.Value
import Idealize.ShloMosaic.Lib.ValueIdx

namespace Idealize.ShloMosaic.ValueIdx

variable {α : Type}

/-- A scalar splat reads the scalar everywhere. -/
theorem broadcastInDim_scalar_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector `[a]` as the column `[a, 1]`: entry `(i, u)` is the vector's entry `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column `[a, 1]` spread to `[a, b]`: entry `(p, c)` is the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x _ (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A vector `[b]` as the row `[1, b]`: entry `(u, c)` is the vector's entry `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x _ (ix1 c) fun ax => ?_
  match ax with
  | ⟨0, _⟩ =>
    show c.val = if b = 1 then 0 else c.val
    split
    · have := c.isLt; omega
    · rfl

/-- A row `[1, b]` spread to `[a, b]`: entry `(p, c)` is the row's entry `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x _ (ix2 (0 : Fin 1) c) fun ax => ?_
  match ax with
  | ⟨0, _⟩ =>
    show 0 = if (1 : ℕ) = 1 then 0 else p.val
    rw [if_pos rfl]
  | ⟨1, _⟩ =>
    show c.val = if b = 1 then 0 else c.val
    split
    · have := c.isLt; omega
    · rfl

/-- A vector `[c]` as `[1, 1, c]`: entry `(u, v, k)` is the vector's entry `k`. -/
theorem broadcastInDim_c_11c_apply {c : ℕ} (x : (⟨1, ![c]⟩ : Shape).Idx → α)
    (h : (⟨1, ![c]⟩ : Shape).BroadcastsInDim ⟨3, ![1, 1, c]⟩ (![2] : Fin 1 → Fin 3)) (u v : Fin 1) (k : Fin c) :
    broadcastInDim ⟨3, ![1, 1, c]⟩ ![2] h x (ix3 u v k) = x (ix1 k) := by
  refine broadcastInDim_apply _ h x _ (ix1 k) fun ax => ?_
  match ax with
  | ⟨0, _⟩ =>
    show k.val = if c = 1 then 0 else k.val
    split
    · have := k.isLt; omega
    · rfl

/-- `[1, 1, c]` spread to `[a, b, c]`: entry `(p, q, k)` is the operand's entry `(0, 0, k)`. -/
theorem broadcastInDim_11c_abc_apply {a b c : ℕ} (x : (⟨3, ![1, 1, c]⟩ : Shape).Idx → α)
    (h : (⟨3, ![1, 1, c]⟩ : Shape).BroadcastsInDim ⟨3, ![a, b, c]⟩ (![0, 1, 2] : Fin 3 → Fin 3)) (p : Fin a) (q : Fin b) (k : Fin c) :
    broadcastInDim ⟨3, ![a, b, c]⟩ ![0, 1, 2] h x (ix3 p q k) = x (ix3 (0 : Fin 1) (0 : Fin 1) k) := by
  refine broadcastInDim_apply _ h x _ (ix3 (0 : Fin 1) (0 : Fin 1) k) fun ax => ?_
  match ax with
  | ⟨0, _⟩ =>
    show 0 = if (1 : ℕ) = 1 then 0 else p.val
    rw [if_pos rfl]
  | ⟨1, _⟩ =>
    show 0 = if (1 : ℕ) = 1 then 0 else q.val
    rw [if_pos rfl]
  | ⟨2, _⟩ =>
    show k.val = if c = 1 then 0 else k.val
    split
    · have := k.isLt; omega
    · rfl

end Idealize.ShloMosaic.ValueIdx
-- ==== Proof.LibVecGather.lean ====
/-
  A vector looked up by a column of row numbers, and a lookup of scaled rows.

  `s[rows]` for a vector `s : [N]` and row numbers `rows : [R, 1]` lowers to a gather whose result `[R]` holds, at `e`,
  the entry `ρ e` of `s`, where `ρ e` is the row number `rows[e, 0]` read as a signed integer and clamped into
  `[0, N − 1]` — the same row `ρ e` that the row gather `x[rows]` of a matrix `x : [N, C]` reads.

  So scaling and looking up commute: with `s` spread along the rows of `x`,
  `(x · s[:, None])[rows] = x[rows] · s[rows][:, None]`, entry by entry: at `(e, c)` both are `x(ρ e, c) · s(ρ e)`.
  No arithmetic law is used; the two sides are one product.
-/
import proofs.«162544_g17308718202953_retrytranche2_243_3_alg».proof.Proof.LibRowGatherScatter
import proofs.«162544_g17308718202953_retrytranche2_243_3_alg».proof.Proof.LibBroadcastInDim

noncomputable section

namespace RowOps

open Idealize.ShloMosaic Idealize.ShloMosaic.ValueIdx

section VecGather
variable {α : Type}

/-- The dimension numbers of `s[rows]`: operand `[N]`, start indices `[R, 1]`, result `[R]`. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the entry of the looked-up row, the row being the one the row gather reads. -/
theorem gather_vec_apply {N R w : Nat} (hN : 0 < N)
    (wf : GatherDims.WF ⟨1, ![N]⟩ ⟨2, ![R, 1]⟩ ⟨1, ![R]⟩ [] [0] [] [0] [] 1 ![1])
    (s : (⟨1, ![N]⟩ : Shape).Idx → α) (idx : IVec ⟨2, ![R, 1]⟩ w) (e : Fin R) :
    Host.gather (vecGatherDims N R wf) s idx (ix1 e) = s (ix1 (gatheredRow hN idx e)) := by
  unfold Host.gather
  congr 1
  funext a
  obtain rfl : a = 0 := Subsingleton.elim _ _
  refine Fin.ext ?_
  show (vecGatherDims N R wf).start (ix1 e) idx 0 + (vecGatherDims N R wf).batchCoord (ix1 e) 0
      + (vecGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = col0 e := by
    funext b; refine Fin.ext ?_
    match b with
    | ⟨0, _⟩ => rfl
    | ⟨1, _⟩ => rfl
  rw [hsi]
  rfl

end VecGather

/-- SCALING AND LOOKING UP COMMUTE: the looked-up rows, each times its looked-up factor, are the rows of the scaled
    matrix looked up. At `(e, c)` both sides are `x(ρ e, c) · s(ρ e)` for the one clamped row number `ρ e`. -/
theorem gather_scaled_rows {N R C w : Nat} {φ : FTy} (hN : 0 < N)
    (wfR : GatherDims.WF ⟨2, ![N, C]⟩ ⟨2, ![R, 1]⟩ ⟨2, ![R, C]⟩ [1] [0] [] [0] [] 1 ![1, C])
    (dR : GatherDims ⟨2, ![N, C]⟩ ⟨2, ![R, 1]⟩ ⟨2, ![R, C]⟩) (hdR : dR = rowGatherDims N R C wfR)
    (wfV : GatherDims.WF ⟨1, ![N]⟩ ⟨2, ![R, 1]⟩ ⟨1, ![R]⟩ [] [0] [] [0] [] 1 ![1])
    (dV : GatherDims ⟨1, ![N]⟩ ⟨2, ![R, 1]⟩ ⟨1, ![R]⟩) (hdV : dV = vecGatherDims N R wfV)
    (hN1 : (⟨1, ![N]⟩ : Shape).BroadcastsInDim ⟨2, ![N, 1]⟩ (![0] : Fin 1 → Fin 2))
    (hNC : (⟨2, ![N, 1]⟩ : Shape).BroadcastsInDim ⟨2, ![N, C]⟩ (![0, 1] : Fin 2 → Fin 2))
    (hR1 : (⟨1, ![R]⟩ : Shape).BroadcastsInDim ⟨2, ![R, 1]⟩ (![0] : Fin 1 → Fin 2))
    (hRC : (⟨2, ![R, 1]⟩ : Shape).BroadcastsInDim ⟨2, ![R, C]⟩ (![0, 1] : Fin 2 → Fin 2))
    (x : FVec Ideal ⟨2, ![N, C]⟩ φ) (s : FVec Ideal ⟨1, ![N]⟩ φ) (idx : IVec ⟨2, ![R, 1]⟩ w) :
    mulf (Host.gather dR x idx)
        (broadcastInDim ⟨2, ![R, C]⟩ ![0, 1] hRC (broadcastInDim ⟨2, ![R, 1]⟩ ![0] hR1 (Host.gather dV s idx)))
      = Host.gather dR (mulf x (broadcastInDim ⟨2, ![N, C]⟩ ![0, 1] hNC (broadcastInDim ⟨2, ![N, 1]⟩ ![0] hN1 s))) idx := by
  subst hdR hdV
  funext j
  obtain ⟨e, c, rfl⟩ : ∃ (e : Fin R) (c : Fin C), j = ix2 e c := ⟨j 0, j 1, eq_ix2 j⟩
  rw [mulf_apply, gather_rows_apply hN, gather_rows_apply hN, mulf_apply, broadcastInDim_a1_ab_apply,
    broadcastInDim_a_a1_apply, broadcastInDim_a1_ab_apply, broadcastInDim_a_a1_apply, gather_vec_apply hN]

end RowOps

end
-- ==== Proof.LibEdgeScatter.lean ====
/-
  Scatters and lookups along the flat edge list of a dense graph with self-loops, read at a node.

  The edge list has 2048² dense edges (edge `e` from node `e / 2048` to node `e % 2048`) followed by one
  self-loop per node. An accumulating scatter whose index column carries each edge's destination node sums, into
  node `d`, exactly the updates of the edges arriving at `d`: one per source node and `d`'s self-loop. A lookup
  whose index column carries a node number reads that node's entry. Node numbers are non-negative 32-bit words, so
  the wrap-around of negative indices (`i < 0 ? i + n : i`) leaves them unchanged, and the clamp of a lookup is
  the identity.
-/
import proofs.«162544_g17308718202953_retrytranche2_243_3_alg».proof.Proof.LibEdgeSum
import proofs.«162544_g17308718202953_retrytranche2_243_3_alg».proof.Proof.LibVecScatter
import proofs.«162544_g17308718202953_retrytranche2_243_3_alg».proof.Proof.LibVecGather
import Idealize.ShloMosaic.Lib.DynamicIndex

noncomputable section

namespace Gcn

open Idealize.ShloMosaic Idealize.ShloMosaic.ValueIdx RowOps

/-- Every edge arrives at one of the 2048 nodes. -/
theorem dstOf_lt (e : Fin 4196352) : dstOf e < 2048 := by
  have := e.isLt; unfold dstOf; split <;> omega

/-- Every edge leaves one of the 2048 nodes. -/
theorem srcOf_lt (e : Fin 4196352) : srcOf e < 2048 := by
  have := e.isLt; unfold srcOf; split <;> omega

/-- The source node of an edge, as a node. -/
def src (e : Fin 4196352) : Fin 2048 := ⟨srcOf e, srcOf_lt e⟩
/-- The destination node of an edge, as a node. -/
def dst (e : Fin 4196352) : Fin 2048 := ⟨dstOf e, dstOf_lt e⟩

/-- The dense edge from `s` to `d`. -/
def denseEdge (s d : Fin 2048) : Fin 4196352 := ⟨s.val * 2048 + d.val, by have := s.isLt; have := d.isLt; omega⟩
/-- Node `d`'s self-loop. -/
def loopEdge (d : Fin 2048) : Fin 4196352 := ⟨4194304 + d.val, by have := d.isLt; omega⟩

theorem src_denseEdge (s d : Fin 2048) : src (denseEdge s d) = s := by
  have := s.isLt; have := d.isLt
  apply Fin.ext; show srcOf (denseEdge s d) = s.val; unfold srcOf denseEdge
  rw [if_pos (by show s.val * 2048 + d.val < 4194304; omega)]; show (s.val * 2048 + d.val) / 2048 = s.val; omega
theorem dst_denseEdge (s d : Fin 2048) : dst (denseEdge s d) = d := by
  have := s.isLt; have := d.isLt
  apply Fin.ext; show dstOf (denseEdge s d) = d.val; unfold dstOf denseEdge
  rw [if_pos (by show s.val * 2048 + d.val < 4194304; omega)]; show (s.val * 2048 + d.val) % 2048 = d.val; omega
theorem src_loopEdge (d : Fin 2048) : src (loopEdge d) = d := by
  have := d.isLt
  apply Fin.ext; show srcOf (loopEdge d) = d.val; unfold srcOf loopEdge
  rw [if_neg (by show ¬ 4194304 + d.val < 4194304; omega)]; show 4194304 + d.val - 4194304 = d.val; omega
theorem dst_loopEdge (d : Fin 2048) : dst (loopEdge d) = d := by
  have := d.isLt
  apply Fin.ext; show dstOf (loopEdge d) = d.val; unfold dstOf loopEdge
  rw [if_neg (by show ¬ 4194304 + d.val < 4194304; omega)]; show 4194304 + d.val - 4194304 = d.val; omega

/-- Wrapping a non-negative index around (`i < 0 ? p : i`) leaves it unchanged. -/
theorem wrap_nonneg (a p : BitVec 32) (h : 0 ≤ a.toInt) : Scalar.select (IntOp.cmpi .slt a 0#32) p a = a := by
  have hlt : a.slt 0#32 = false := by
    simp only [BitVec.slt, BitVec.toInt_zero, decide_eq_false_iff_not, Int.not_lt]
    exact h
  show (if BitVec.ofBool (a.slt 0#32) = 1 then _ else _) = _
  rw [hlt]
  rfl

/-- A node number as a word is non-negative. -/
theorem node_nonneg {n : Nat} (hn : n < 2048) : 0 ≤ (BitVec.ofNat 32 n).toInt := by
  rw [toInt_ofNat_of_lt (by omega)]; omega

/-- Wrapping a node number around leaves it unchanged. -/
theorem wrap_node {n : Nat} (hn : n < 2048) (p : BitVec 32) :
    Scalar.select (IntOp.cmpi .slt (BitVec.ofNat 32 n) 0#32) p (BitVec.ofNat 32 n) = BitVec.ofNat 32 n :=
  wrap_nonneg _ _ (node_nonneg hn)

/-- A lookup whose index entry is the node number `n` reads node `n`: the clamp is the identity. -/
theorem gatheredRow_node {R : Nat} (idx : IVec ⟨2, ![R, 1]⟩ 32) (e : Fin R) (n : Fin 2048)
    (h : idx (col0 e) = BitVec.ofNat 32 n.val) : gatheredRow (N := 2048) (by decide) idx e = n := by
  have hn := n.isLt
  apply Fin.ext
  show min (idx (col0 e)).toInt.toNat (2048 - 1) = n.val
  rw [h, toInt_ofNat_of_lt (by omega), Int.toNat_natCast]
  omega

/-- The updates that an index column of destination nodes sends to node `d` are those of the edges into `d`. -/
theorem rowsOnto_dst (idx : IVec ⟨2, ![4196352, 1]⟩ 32) (hidx : ∀ e, idx (col0 e) = BitVec.ofNat 32 (dstOf e))
    (d : Fin 2048) : rowsOnto idx d = Finset.univ.filter (fun e : Fin 4196352 => dstOf e = d.val) := by
  unfold rowsOnto
  refine Finset.filter_congr fun e _ => ?_
  have := dstOf_lt e
  rw [hidx e, toInt_ofNat_of_lt (by omega)]
  exact Int.ofNat_inj

/-- A VECTOR scattered along the edge list by destination, read at node `d`: the operand's entry plus the
    updates of the dense edges into `d` and of `d`'s self-loop. -/
theorem scatter_edges_vec (wf : ScatterDims.WF ⟨1, ![2048]⟩ ⟨2, ![4196352, 1]⟩ ⟨1, ![4196352]⟩ [] [0] [0] 1)
    (z : FVec Ideal ⟨1, ![2048]⟩ .f32) (idx : IVec ⟨2, ![4196352, 1]⟩ 32)
    (hidx : ∀ e, idx (col0 e) = BitVec.ofNat 32 (dstOf e)) (upd : FVec Ideal ⟨1, ![4196352]⟩ .f32) (d : Fin 2048) :
    Host.scatterAdd (vecScatterDims 2048 4196352 wf) z idx upd (ix1 d)
      = z (ix1 d) + ((∑ s : Fin 2048, upd (ix1 (denseEdge s d))) + upd (ix1 (loopEdge d))) := by
  rw [scatterAdd_vec_apply, rowsOnto_dst idx hidx d, edge_sum (fun e => upd (ix1 e)) d]
  rfl

/-- ROWS scattered along the edge list by destination, read at node `d`, column `k`. -/
theorem scatter_edges_rows {C : Nat}
    (wf : ScatterDims.WF ⟨2, ![2048, C]⟩ ⟨2, ![4196352, 1]⟩ ⟨2, ![4196352, C]⟩ [1] [0] [0] 1)
    (z : FVec Ideal ⟨2, ![2048, C]⟩ .f32) (idx : IVec ⟨2, ![4196352, 1]⟩ 32)
    (hidx : ∀ e, idx (col0 e) = BitVec.ofNat 32 (dstOf e)) (upd : FVec Ideal ⟨2, ![4196352, C]⟩ .f32)
    (d : Fin 2048) (k : Fin C) :
    Host.scatterAdd (rowScatterDims 2048 4196352 C wf) z idx upd (ix2 d k)
      = z (ix2 d k) + ((∑ s : Fin 2048, upd (ix2 (denseEdge s d) k)) + upd (ix2 (loopEdge d) k)) := by
  rw [scatterAdd_rows_apply, rowsOnto_dst idx hidx d, edge_sum (fun e => upd (ix2 e k)) d]
  rfl

/-- A lookup of matrix entries whose two index columns carry node numbers reads the entry at those nodes. -/
theorem gather_pairs_nodes {α : Type} {R : Nat}
    (wf : GatherDims.WF ⟨2, ![2048, 2048]⟩ ⟨2, ![R, 2]⟩ ⟨1, ![R]⟩ [] [0, 1] [] [0, 1] [] 1 ![1, 1])
    (x : (⟨2, ![2048, 2048]⟩ : Shape).Idx → α) (idx : IVec ⟨2, ![R, 2]⟩ 32) (e : Fin R) (r c : Fin 2048)
    (hr : idx (ix2 e (0 : Fin 2)) = BitVec.ofNat 32 r.val) (hc : idx (ix2 e (1 : Fin 2)) = BitVec.ofNat 32 c.val) :
    Host.gather (pairGatherDims 2048 2048 R wf) x idx (ix1 e) = x (ix2 r c) := by
  have hrl := r.isLt
  have hcl := c.isLt
  rw [gather_pairs_apply (by decide) (by decide)]
  congr 1
  funext a
  match a with
  | ⟨0, _⟩ =>
    apply Fin.ext
    show min (idx (ix2 e (0 : Fin 2))).toInt.toNat (2048 - 1) = r.val
    rw [hr, toInt_ofNat_of_lt (by omega), Int.toNat_natCast]; omega
  | ⟨1, _⟩ =>
    apply Fin.ext
    show min (idx (ix2 e (1 : Fin 2))).toInt.toNat (2048 - 1) = c.val
    rw [hc, toInt_ofNat_of_lt (by omega), Int.toNat_natCast]; omega

/-! ## Concatenations along the edge list -/

section Concat
variable {α : Type}

/-- An array over the flat edge list that is a dense part followed by a per-node part, read at an edge: the dense
    part at a dense edge, the per-node part at a self-loop. -/
theorem concat_edges_apply
    (h : Shape.Concatenates [(⟨1, ![4194304]⟩ : Shape), (⟨1, ![2048]⟩ : Shape)] ⟨1, ![4196352]⟩ (0 : Fin 1))
    (x₁ : (⟨1, ![4194304]⟩ : Shape).Idx → α) (x₂ : (⟨1, ![2048]⟩ : Shape).Idx → α) (e : Fin 4196352) :
    concatenate ⟨1, ![4196352]⟩ (0 : Fin 1) [⟨⟨1, ![4194304]⟩, x₁⟩, ⟨⟨1, ![2048]⟩, x₂⟩] h (ix1 e)
      = if hlt : e.val < 4194304 then x₁ (ix1 ⟨e.val, hlt⟩)
        else x₂ (ix1 ⟨e.val - 4194304, by have := e.isLt; omega⟩) := by
  have he := e.isLt
  by_cases hlt : e.val < 4194304
  · rw [dif_pos hlt]
    exact concatenate_pair_apply_left (0 : Fin 1) x₁ x₂ h (ix1 e) rfl (ix1 ⟨e.val, hlt⟩)
      (fun b => match b with | ⟨0, _⟩ => rfl)
  · rw [dif_neg hlt]
    exact concatenate_pair_apply_right (0 : Fin 1) x₁ x₂ h (ix1 e) rfl rfl (ix1 ⟨e.val - 4194304, by omega⟩)
      (fun b hb => absurd (Subsingleton.elim _ _) hb)
      (by show e.val - 4194304 + 4194304 = e.val; omega)

/-- Two index columns laid side by side, read at a row: the first column's entry in column 0, the second's in
    column 1. -/
theorem concat_cols_apply {R : Nat}
    (h : Shape.Concatenates [(⟨2, ![R, 1]⟩ : Shape), (⟨2, ![R, 1]⟩ : Shape)] ⟨2, ![R, 2]⟩ (1 : Fin 2))
    (x₁ x₂ : (⟨2, ![R, 1]⟩ : Shape).Idx → α) (e : Fin R) :
    concatenate ⟨2, ![R, 2]⟩ (1 : Fin 2) [⟨⟨2, ![R, 1]⟩, x₁⟩, ⟨⟨2, ![R, 1]⟩, x₂⟩] h (ix2 e (0 : Fin 2)) = x₁ (col0 e)
    ∧ concatenate ⟨2, ![R, 2]⟩ (1 : Fin 2) [⟨⟨2, ![R, 1]⟩, x₁⟩, ⟨⟨2, ![R, 1]⟩, x₂⟩] h (ix2 e (1 : Fin 2)) = x₂ (col0 e) := by
  constructor
  · exact concatenate_pair_apply_left (1 : Fin 2) x₁ x₂ h (ix2 e (0 : Fin 2)) rfl (col0 e)
      (fun b => match b with | ⟨0, _⟩ => rfl | ⟨1, _⟩ => rfl)
  · exact concatenate_pair_apply_right (1 : Fin 2) x₁ x₂ h (ix2 e (1 : Fin 2)) rfl rfl (col0 e)
      (fun b hb => match b, hb with
        | ⟨0, _⟩, _ => rfl
        | ⟨1, _⟩, hb => absurd rfl hb)
      (by rfl)

end Concat

end Gcn

end
-- ==== Proof.RefIndex.lean ====
/-
  The reference's edge list, read entry by entry.

  The reference turns the dense adjacency matrix into an explicit list of edges: all 2048² ordered pairs
  (source `e / 2048`, destination `e % 2048`) followed by one self-loop per node, 4196352 edges in all. Here each
  index array it builds on the way — the repeated and the tiled node numbers, their wrapped-around copies, the
  coordinate pairs, the concatenations with the self-loops — is read at an edge `e` as the node number it holds, and
  the dense edges' weights as the adjacency entries they look up.
-/
import proofs.«162544_g17308718202953_retrytranche2_243_3_alg».proof.Proof.ReadPatched
import proofs.«162544_g17308718202953_retrytranche2_243_3_alg».proof.Proof.LibEdgeScatter

noncomputable section

namespace Cert.ReferenceIdeal.RefValue

open Cert.ReferenceIdeal Cert.ReferenceIdeal.Gen Cert.ReferenceIdeal.ReadP
open Idealize.ShloMosaic Idealize.ShloMosaic.ValueIdx RowOps Gcn

variable {F : FTy → Type} [FloatOps F]

/-! ## The dense edges' endpoints -/

/-- Each node number repeated 2048 times in a row: entry `e` is `e / 2048`, the dense edge's source. -/
theorem v2_at (e : Fin 4194304) : val_main_v2 (F := F) (ix1 e) = BitVec.ofNat 32 (e.val / 2048) := by
  rw [val_main_v2_apply, val_main_v1_apply, val_main_v0_apply]

/-- The node numbers in order, 2048 times over: entry `e` is `e % 2048`, the dense edge's destination. -/
theorem v5_at (e : Fin 4194304) : val_main_v5 (F := F) (ix1 e) = BitVec.ofNat 32 (e.val % 2048) := by
  rw [val_main_v5_apply, val_main_v4_apply, val_main_v3_apply, val_main_v0_apply]
  show BitVec.ofNat 32 (0 * 2048 + e.val % 2048) = _
  rw [Nat.zero_mul, Nat.zero_add]

/-- Wrapped around as an index, a source is itself. -/
theorem v10_at (e : Fin 4194304) : val_main_v10 (F := F) (ix1 e) = BitVec.ofNat 32 (e.val / 2048) := by
  have he := e.isLt
  rw [val_main_v10_apply, val_main_v7_apply, val_main_v6_apply, val_main_c_apply, v2_at]
  exact wrap_node (by omega) _

/-- Wrapped around as an index, a destination is itself. -/
theorem v15_at (e : Fin 4194304) : val_main_v15 (F := F) (ix1 e) = BitVec.ofNat 32 (e.val % 2048) := by
  have he := e.isLt
  rw [val_main_v15_apply, val_main_v12_apply, val_main_v11_apply, val_main_c_1_apply, v5_at]
  exact wrap_node (by omega) _

/-- The coordinate pairs of the dense edges: row `e` is (source, destination). -/
theorem v18_at (e : Fin 4194304) :
    val_main_v18 (F := F) (ix2 e (0 : Fin 2)) = BitVec.ofNat 32 (e.val / 2048)
    ∧ val_main_v18 (F := F) (ix2 e (1 : Fin 2)) = BitVec.ofNat 32 (e.val % 2048) := by
  have h := concat_cols_apply (R := 4194304) concatenates_S4194304x1_S4194304x1_S4194304x2_d1
    (val_main_v16 (F := F)) (val_main_v17 (F := F)) e
  have hi16 : idx_main_v16 (col0 e) = ix1 e := funext fun a => match a with | ⟨0, _⟩ => rfl
  have hi17 : idx_main_v17 (col0 e) = ix1 e := funext fun a => match a with | ⟨0, _⟩ => rfl
  refine ⟨h.1.trans ?_, h.2.trans ?_⟩
  · rw [val_main_v16_apply, hi16]; exact v10_at e
  · rw [val_main_v17_apply, hi17]; exact v15_at e

/-- The dense edges' weights: edge `e` weighs the adjacency entry at (source, destination). -/
theorem v19_at (x1 : (⟨S2048x2048, .f32⟩ : BufTy).Contents (Elt F)) (e : Fin 4194304) :
    val_main_v19 (F := F) x1 (ix1 e)
      = x1 (ix2 (⟨e.val / 2048, by have := e.isLt; omega⟩ : Fin 2048) (⟨e.val % 2048, by omega⟩ : Fin 2048)) := by
  unfold val_main_v19
  exact gather_pairs_nodes (R := 4194304) gather_S2048x2048_S4194304x2_S4194304_n_01_n_n_01_1_11.wf x1
    (val_main_v18 (F := F)) e _ _ (v18_at e).1 (v18_at e).2

/-! ## The whole edge list: the dense edges, then one self-loop per node -/

/-- Every edge's source node. -/
theorem v21_at (e : Fin 4196352) : val_main_v21 (F := F) (ix1 e) = BitVec.ofNat 32 (srcOf e) := by
  unfold val_main_v21
  rw [concat_edges_apply]
  unfold srcOf
  by_cases hlt : e.val < 4194304
  · rw [dif_pos hlt, if_pos hlt]; exact v2_at ⟨e.val, hlt⟩
  · rw [dif_neg hlt, if_neg hlt, val_main_v20_apply]

/-- Every edge's destination node. -/
theorem v22_at (e : Fin 4196352) : val_main_v22 (F := F) (ix1 e) = BitVec.ofNat 32 (dstOf e) := by
  unfold val_main_v22
  rw [concat_edges_apply]
  unfold dstOf
  by_cases hlt : e.val < 4194304
  · rw [dif_pos hlt, if_pos hlt]; exact v5_at ⟨e.val, hlt⟩
  · rw [dif_neg hlt, if_neg hlt, val_main_v20_apply]

end Cert.ReferenceIdeal.RefValue

end
-- ==== Proof.Spec.lean ====
/-
  A two-layer graph convolution over a dense weighted adjacency matrix, followed by a temperature-scaled
  log-softmax over the classes, as ONE function of the argument arrays, entry by entry, on the extended reals.

  For an adjacency matrix `A` (entry `A s d` the weight of the edge from `s` to `d`) every node gets a self-loop
  of weight one, so the weighted in-degree of `d` is the column sum plus one, and the symmetric normalisation
  scales the edge `s → d` by `deg(s)^(-1/2) · A s d · deg(d)^(-1/2)` (a node of non-positive degree is scaled by
  zero). One layer maps node features `h` through a linear map `W`, sums each node's incoming normalised
  messages, adds its own self-loop message, and adds a bias:

      layer(h)[f, d] = dinv d · (∑ s, (dinv s · (W h)[f, s]) · A s d) + (dinv d · dinv d) · (W h)[f, d] + b f.

  The network is `layer₂ (max (layer₁ x) 0)`, its output multiplied by a scale `c` (the reciprocal of the
  temperature), and each node's row of class scores normalised by log-softmax, shifted by the row's maximum.
  Features are kept feature-major (`h k s`: feature `k` of node `s`) in the layers; the result is read
  node-major.
-/
import Idealize.ShloMosaic.PureOps.Ideal
import Idealize.ShloMosaic.PureOps.Ideal.Laws
import Idealize.ShloMosaic.Lib.ValueIdx

noncomputable section

namespace Gcn

open Idealize.ShloMosaic

variable (A : Fin 2048 → Fin 2048 → EReal)

/-- The weighted in-degree of node `d`, its self-loop included: the column sum of `A` plus one. -/
def deg (d : Fin 2048) : EReal := (∑ s, A s d) + 1

/-- `deg(d)^(-1/2)` where the degree is positive, zero elsewhere. -/
def dinv (d : Fin 2048) : EReal := if 0 < deg A d then Ideal.rsqrt (deg A d) else 0

variable {K Fo : Nat}

/-- The linear map of a layer, feature-major: output feature `f` of node `s`. -/
def lin (W : Fin Fo → Fin K → EReal) (h : Fin K → Fin 2048 → EReal) (f : Fin Fo) (s : Fin 2048) : EReal :=
  ∑ k, W f k * h k s

/-- One graph-convolution layer, feature-major: the normalised sum of the incoming messages, the node's own
    self-loop message, and the bias. -/
def layer (W : Fin Fo → Fin K → EReal) (b : Fin Fo → EReal) (h : Fin K → Fin 2048 → EReal)
    (f : Fin Fo) (d : Fin 2048) : EReal :=
  (dinv A d * (∑ s, (dinv A s * lin W h f s) * A s d) + (dinv A d * dinv A d) * lin W h f d) + b f

/-- The class scores before normalisation: the second layer over the rectified first, times the scale `c`. -/
def logits (c : EReal) (x : Fin 2048 → Fin 32 → EReal) (W1 : Fin 32 → Fin 32 → EReal) (b1 : Fin 32 → EReal)
    (W2 : Fin 16 → Fin 32 → EReal) (b2 : Fin 16 → EReal) (f : Fin 16) (d : Fin 2048) : EReal :=
  layer A W2 b2 (fun k s => max (layer A W1 b1 (fun j t => x t j) k s) 0) f d * c

/-- Log-softmax of a node's sixteen class scores `L · d`, shifted by their maximum. -/
def logSoftmax (L : Fin 16 → Fin 2048 → EReal) (f : Fin 16) (d : Fin 2048) : EReal :=
  (L f d - (Finset.univ : Finset (Fin 16)).fold max ⊥ (fun g => L g d))
    - Ideal.log (∑ g, Ideal.exp (L g d - (Finset.univ : Finset (Fin 16)).fold max ⊥ (fun g' => L g' d)))

/-- The network's result at node `d`, class `f`. -/
def out (c : EReal) (x : Fin 2048 → Fin 32 → EReal) (W1 : Fin 32 → Fin 32 → EReal) (b1 : Fin 32 → EReal)
    (W2 : Fin 16 → Fin 32 → EReal) (b2 : Fin 16 → EReal) (d : Fin 2048) (f : Fin 16) : EReal :=
  logSoftmax (logits A c x W1 b1 W2 b2) f d

/-- The scale: the exact reciprocal of the temperature's binary value `13421773 / 67108864`. -/
def scale : EReal := ((67108864 / 13421773 : ℝ) : EReal)

open ValueIdx in
/-- The result array over the argument arrays as the programs hold them: `x : [2048, 32]`, `adj : [2048, 2048]`,
    `W1 : [32, 32]`, `b1 : [32]`, `W2 : [16, 32]`, `b2 : [16]`, result `[2048, 16]`. -/
def G (x : (⟨2, ![2048, 32]⟩ : Shape).Idx → EReal) (adj : (⟨2, ![2048, 2048]⟩ : Shape).Idx → EReal)
    (W1 : (⟨2, ![32, 32]⟩ : Shape).Idx → EReal) (b1 : (⟨1, ![32]⟩ : Shape).Idx → EReal)
    (W2 : (⟨2, ![16, 32]⟩ : Shape).Idx → EReal) (b2 : (⟨1, ![16]⟩ : Shape).Idx → EReal) :
    (⟨2, ![2048, 16]⟩ : Shape).Idx → EReal :=
  fun i => out (fun s d => adj (ix2 s d)) scale (fun s k => x (ix2 s k)) (fun f k => W1 (ix2 f k)) (fun f => b1 (ix1 f))
    (fun f k => W2 (ix2 f k)) (fun f => b2 (ix1 f)) (i 0) (i 1)

end Gcn

end
-- ==== Proof.Consts.lean ====
/-
  The float constants the two programs spell, as the extended reals their binary patterns denote: one, minus
  infinity, and the temperature `0.2`, whose single-precision pattern is exactly `13421773 / 67108864`
  (slightly above one fifth). They are stated once, here, so that every other module reads them and none unfolds
  the decoding of a pattern again.
-/
import Idealize.ShloMosaic.PureOps.Ideal
import Idealize.ShloMosaic.PureOps.Ideal.Laws

noncomputable section

namespace Gcn.Consts

open Idealize.ShloMosaic

/-- The pattern of `1.0` denotes `1`. -/
theorem ofBits_one : Ideal.ofBits .f32 0x3F800000#32 = 1 := by
  simp [Ideal.ofBits, Ideal.ieee, -EReal.coe_mul]; norm_num

/-- The pattern of `-inf` denotes the bottom of the extended reals. -/
theorem ofBits_neg_inf : Ideal.ofBits .f32 0xFF800000#32 = ⊥ := by
  simp [Ideal.ofBits, Ideal.ieee]

/-- The pattern of the temperature `0.2` denotes `13421773 / 67108864`. -/
theorem ofBits_temperature : Ideal.ofBits .f32 0x3E4CCCCD#32 = ((13421773 / 67108864 : ℝ) : EReal) := by
  simp [Ideal.ofBits, Ideal.ieee, -EReal.coe_mul]; norm_num

/-- Dividing by the temperature is multiplying by its exact reciprocal `67108864 / 13421773`. -/
theorem div_temperature (x : EReal) :
    Ideal.div x (Ideal.ofBits .f32 0x3E4CCCCD#32) = x * ((67108864 / 13421773 : ℝ) : EReal) := by
  rw [ofBits_temperature, Ideal.div_coe (by norm_num : (13421773 / 67108864 : ℝ) ≠ 0)]
  norm_num

end Gcn.Consts

end
-- ==== Proof.RefDegree.lean ====
/-
  The reference's edge weights, degrees and normalisers.

  Every dense edge weighs its adjacency entry and every self-loop weighs one. Summing the weights into their
  destination nodes gives each node's weighted in-degree, the column sum of the adjacency matrix plus one; the
  normaliser is `1 / √deg` where the degree is positive and zero elsewhere, which is `deg^(-1/2)` there.
-/
import proofs.«162544_g17308718202953_retrytranche2_243_3_alg».proof.Proof.RefIndex
import proofs.«162544_g17308718202953_retrytranche2_243_3_alg».proof.Proof.Spec
import proofs.«162544_g17308718202953_retrytranche2_243_3_alg».proof.Proof.Consts

noncomputable section

namespace Gcn

open Idealize.ShloMosaic Idealize.ShloMosaic.ValueIdx

/-- The normaliser as a message-passing implementation spells it — `1 / √deg` under the guard `deg > 0`, the
    guard repeated inside the root so that the root never sees a non-positive number — is `deg^(-1/2)` where the
    degree is positive and zero elsewhere. -/
theorem dinv_select (D : EReal) :
    Scalar.select (Ideal.cmp .ogt D 0) (Ideal.div 1 (Ideal.sqrt (Scalar.select (Ideal.cmp .ogt D 0) D 1))) (0 : EReal)
      = if 0 < D then Ideal.rsqrt D else 0 := by
  by_cases h : 0 < D
  · have hc : Ideal.cmp .ogt D 0 = 1#1 := by simp [Ideal.cmp, h]
    rw [hc, select_one, select_one, if_pos h, div_one_sqrt h]
  · have hc : Ideal.cmp .ogt D 0 = 0#1 := by simp [Ideal.cmp, h]
    rw [hc, select_zero, if_neg h]

end Gcn

namespace Cert.ReferenceIdeal.RefValue

open Cert.ReferenceIdeal Cert.ReferenceIdeal.Gen Cert.ReferenceIdeal.ReadP
open Idealize.ShloMosaic Idealize.ShloMosaic.ValueIdx RowOps Gcn

variable {F : FTy → Type} [FloatOps F]

/-! ## The edge weights -/

/-- A dense edge weighs its adjacency entry. -/
theorem v24_dense (x1 : (⟨S2048x2048, .f32⟩ : BufTy).Contents (Elt Ideal)) (s d : Fin 2048) :
    val_main_v24 (F := Ideal) x1 (ix1 (denseEdge s d)) = x1 (ix2 s d) := by
  have hs := s.isLt
  have hd := d.isLt
  unfold val_main_v24
  rw [concat_edges_apply, dif_pos (by show s.val * 2048 + d.val < 4194304; omega), v19_at]
  congr 1
  funext a
  match a with
  | ⟨0, _⟩ => apply Fin.ext; show (s.val * 2048 + d.val) / 2048 = s.val; omega
  | ⟨1, _⟩ => apply Fin.ext; show (s.val * 2048 + d.val) % 2048 = d.val; omega

/-- A self-loop weighs one. -/
theorem v24_loop (x1 : (⟨S2048x2048, .f32⟩ : BufTy).Contents (Elt Ideal)) (d : Fin 2048) :
    val_main_v24 (F := Ideal) x1 (ix1 (loopEdge d)) = 1 := by
  have hd := d.isLt
  unfold val_main_v24
  rw [concat_edges_apply, dif_neg (by show ¬ 4194304 + d.val < 4194304; omega), val_main_v23_apply, val_main_cst_apply]
  exact Gcn.Consts.ofBits_one

/-! ## The index columns of the first layer's lookups and scatters: sources and destinations, wrapped around -/

theorem v33_at (e : Fin 4196352) : val_main_v33 (F := F) (col0 e) = BitVec.ofNat 32 (dstOf e) := by
  have hi : idx_main_v33 (col0 e) = ix1 e := funext fun a => match a with | ⟨0, _⟩ => rfl
  rw [val_main_v33_apply, hi, val_main_v32_apply, val_main_v29_apply, val_main_v28_apply, val_main_c_4_apply, v22_at]
  exact wrap_node (dstOf_lt e) _

theorem v49_at (e : Fin 4196352) : val_main_v49 (F := F) (col0 e) = BitVec.ofNat 32 (srcOf e) := by
  have hi : idx_main_v49 (col0 e) = ix1 e := funext fun a => match a with | ⟨0, _⟩ => rfl
  rw [val_main_v49_apply, hi, val_main_v48_apply, val_main_v45_apply, val_main_v44_apply, val_main_c_11_apply, v21_at]
  exact wrap_node (srcOf_lt e) _

theorem v57_at (e : Fin 4196352) : val_main_v57 (F := F) (col0 e) = BitVec.ofNat 32 (dstOf e) := by
  have hi : idx_main_v57 (col0 e) = ix1 e := funext fun a => match a with | ⟨0, _⟩ => rfl
  rw [val_main_v57_apply, hi, val_main_v56_apply, val_main_v53_apply, val_main_v52_apply, val_main_c_13_apply, v22_at]
  exact wrap_node (dstOf_lt e) _

theorem v67_at (e : Fin 4196352) : val_main_v67 (F := F) (col0 e) = BitVec.ofNat 32 (srcOf e) := by
  have hi : idx_main_v67 (col0 e) = ix1 e := funext fun a => match a with | ⟨0, _⟩ => rfl
  rw [val_main_v67_apply, hi, val_main_v66_apply, val_main_v63_apply, val_main_v62_apply, val_main_c_16_apply, v21_at]
  exact wrap_node (srcOf_lt e) _

theorem v76_at (e : Fin 4196352) : val_main_v76 (F := F) (col0 e) = BitVec.ofNat 32 (dstOf e) := by
  have hi : idx_main_v76 (col0 e) = ix1 e := funext fun a => match a with | ⟨0, _⟩ => rfl
  rw [val_main_v76_apply, hi, val_main_v75_apply, val_main_v72_apply, val_main_v71_apply, val_main_c_18_apply, v22_at]
  exact wrap_node (dstOf_lt e) _

/-! ## The degree and the normaliser -/

/-- The edge weights summed into their destinations, onto a zero: the weighted in-degree, self-loop included. -/
theorem v34_at (x1 : (⟨S2048x2048, .f32⟩ : BufTy).Contents (Elt Ideal)) (d : Fin 2048) :
    val_main_v34 (F := Ideal) x1 (ix1 d) = Gcn.deg (fun s t => x1 (ix2 s t)) d := by
  unfold val_main_v34
  have hd : scatter_S2048_S4196352x1_S4196352_n_0_0_1
      = vecScatterDims 2048 4196352 Facts₀.scatter_S2048_S4196352x1_S4196352_n_0_0_1_wf := rfl
  rw [hd, scatter_edges_vec _ _ _ (fun e => v33_at e), val_main_v27_apply, val_main_cst_3_apply]
  simp only [v24_dense, v24_loop]
  show Ideal.ofBits .f32 0x00000000#32 + _ = _
  rw [Ideal.ofBits_zero_f32, zero_add]
  rfl

/-- The normaliser of every node. -/
theorem v43_at (x1 : (⟨S2048x2048, .f32⟩ : BufTy).Contents (Elt Ideal)) (d : Fin 2048) :
    val_main_v43 (F := Ideal) x1 (ix1 d) = Gcn.dinv (fun s t => x1 (ix2 s t)) d := by
  rw [val_main_v43_apply, val_main_v36_apply, val_main_v42_apply, val_main_v40_apply, val_main_v39_apply,
    val_main_v38_apply, v34_at, val_main_v35_apply, val_main_cst_6_apply, val_main_v37_apply, val_main_cst_7_apply,
    val_main_v41_apply, val_main_cst_9_apply, val_main_call0_v1_apply, val_main_call0_v0_apply, val_main_cst_8_apply,
    val_main_call1_v1_apply, val_main_call1_v0_apply, val_main_cst_10_apply]
  show Scalar.select (Ideal.cmp .ogt _ (Ideal.ofBits .f32 0x00000000#32))
      (Ideal.div (Ideal.ofBits .f32 0x3F800000#32) (Ideal.sqrt (Scalar.select (Ideal.cmp .ogt _ (Ideal.ofBits .f32 0x00000000#32)) _
        (Ideal.ofBits .f32 0x3F800000#32)))) (Ideal.ofBits .f32 0x00000000#32) = _
  rw [Ideal.ofBits_zero_f32, Gcn.Consts.ofBits_one]
  exact dinv_select _

end Cert.ReferenceIdeal.RefValue

end
-- ==== Proof.GcnAlgebra.lean ====
/-
  The graph-convolution layer as a sum of messages. A message-passing evaluation sends along every edge `s → d` the
  source's transformed feature scaled by `deg(s)^(-1/2) · A s d · deg(d)^(-1/2)`, sends along `d`'s self-loop its own
  transformed feature scaled by `deg(d)^(-1/2) · 1 · deg(d)^(-1/2)`, adds all of them onto a zero, and adds the bias.
  The dense form of the layer takes the factor `deg(d)^(-1/2)` out of the sum over the sources.

  Products and sums of extended reals commute and associate, so the two agree term by term once that factor is taken
  out; and it can be taken out because it is non-negative and finite — zero where the degree is not positive or is
  infinite, a positive real otherwise. Nothing is assumed of the adjacency matrix, the features or the weights: they
  may be infinite.
-/
import proofs.«162544_g17308718202953_retrytranche2_243_3_alg».proof.Proof.Spec
import proofs.«162544_g17308718202953_retrytranche2_243_3_alg».proof.Proof.LibEdgeSum

noncomputable section

namespace Gcn

open Idealize.ShloMosaic

variable (A : Fin 2048 → Fin 2048 → EReal)

/-- The normalising factor of a node is non-negative: `deg^(-1/2)` at a positive degree, zero elsewhere. -/
theorem dinv_nonneg (d : Fin 2048) : 0 ≤ dinv A d := by
  unfold dinv
  by_cases h : 0 < deg A d
  · rw [if_pos h]; exact rsqrt_nonneg_of_pos h
  · rw [if_neg h]

/-- The normalising factor of a node is finite: `deg^(-1/2)` is infinite only at degree zero, where the factor is
    zero by definition. -/
theorem dinv_ne_top (d : Fin 2048) : dinv A d ≠ ⊤ := by
  unfold dinv
  by_cases h : 0 < deg A d
  · rw [if_pos h]; exact rsqrt_ne_top_of_pos h
  · rw [if_neg h]; exact EReal.zero_ne_top

/-- The sum of the messages into node `d` — every edge `s → d` carrying `dinv s · A s d · dinv d` times the source's
    transformed feature `∑ k, h k s · W f k`, the self-loop carrying `dinv d · 1 · dinv d` times `d`'s own — onto a
    zero and plus the bias, is the layer's dense form. -/
theorem layer_eq_messages {K Fo : Nat} (W : Fin Fo → Fin K → EReal) (b : Fin Fo → EReal)
    (h : Fin K → Fin 2048 → EReal) (d : Fin 2048) (f : Fin Fo) :
    (0 + ((∑ s : Fin 2048, ((dinv A s * A s d) * dinv A d) * (∑ k, h k s * W f k))
          + ((dinv A d * 1) * dinv A d) * (∑ k, h k d * W f k))) + b f
      = layer A W b h f d := by
  -- the transformed feature, with the factors of each product in the other order
  have hlin : ∀ s : Fin 2048, (∑ k, h k s * W f k) = lin W h f s := fun s =>
    Finset.sum_congr rfl (fun k _ => mul_comm _ _)
  -- the factor of the target node leaves the sum over the sources: it is non-negative and finite
  have hout : dinv A d * (∑ s, (dinv A s * lin W h f s) * A s d)
      = ∑ s, dinv A d * ((dinv A s * lin W h f s) * A s d) :=
    mul_sum_of_nonneg Finset.univ (dinv A d) (dinv_nonneg A d) (dinv_ne_top A d) _
  unfold layer
  rw [hout, zero_add, mul_one]
  congr 2
  · -- edge by edge, the same four factors in another order
    refine Finset.sum_congr rfl (fun s _ => ?_)
    rw [hlin s]
    ac_rfl
  · rw [hlin d]

end Gcn

end
-- ==== Proof.RefLayer1.lean ====
/-
  The reference's first graph-convolution layer, read at a node and a feature.

  Every edge carries the message `dinv(source) · weight · dinv(destination)` times the source's transformed
  features; the messages are summed into their destinations onto zeros, the bias is added, and the result is
  rectified. Read at node `d`, the sum over the edges into `d` is one term per source node plus the self-loop's,
  and that is the dense form of the layer.
-/
import proofs.«162544_g17308718202953_retrytranche2_243_3_alg».proof.Proof.RefDegree
import proofs.«162544_g17308718202953_retrytranche2_243_3_alg».proof.Proof.GcnAlgebra

noncomputable section

namespace Cert.ReferenceIdeal.RefValue

open Cert.ReferenceIdeal Cert.ReferenceIdeal.Gen Cert.ReferenceIdeal.ReadP
open Idealize.ShloMosaic Idealize.ShloMosaic.ValueIdx RowOps Gcn

section Layer1

variable (x0 : (⟨S2048x32, .f32⟩ : BufTy).Contents (Elt Ideal)) (x1 : (⟨S2048x2048, .f32⟩ : BufTy).Contents (Elt Ideal))
  (x2 : (⟨S32x32, .f32⟩ : BufTy).Contents (Elt Ideal)) (x3 : (⟨S32, .f32⟩ : BufTy).Contents (Elt Ideal))

/-- The first layer's linear map, node-major: feature `f` of node `s` is the row of `x` against the row of `W1`. -/
theorem v26_at (s : Fin 2048) (f : Fin 32) :
    val_main_v26 (F := Ideal) x0 x2 (ix2 s f) = ∑ k : Fin 32, x0 (ix2 s k) * x2 (ix2 f k) := by
  rw [val_main_v26_apply]
  refine Finset.sum_congr rfl fun k _ => ?_
  rw [val_main_v25_apply]
  have hl : lidx_main_v26 (ix2 s f) k = ix2 s k := funext fun a => match a with | ⟨0, _⟩ => rfl | ⟨1, _⟩ => rfl
  have hr : idx_main_v25 (ridx_main_v26 (ix2 s f) k) = ix2 f k :=
    funext fun a => match a with | ⟨0, _⟩ => rfl | ⟨1, _⟩ => rfl
  rw [hl, hr]

/-- An edge's normalised weight: the source's normaliser, the edge's weight, the destination's normaliser. -/
theorem v59_at (e : Fin 4196352) :
    val_main_v59 (F := Ideal) x1 (ix1 e)
      = (Gcn.dinv (fun s t => x1 (ix2 s t)) (src e) * val_main_v24 (F := Ideal) x1 (ix1 e))
        * Gcn.dinv (fun s t => x1 (ix2 s t)) (dst e) := by
  have h50 : val_main_v50 (F := Ideal) x1 (ix1 e) = Gcn.dinv (fun s t => x1 (ix2 s t)) (src e) := by
    unfold val_main_v50
    have hd : gather_S2048_S4196352x1_S4196352_n_0_n_n_0_1_1
        = vecGatherDims 2048 4196352 Facts₀.gather_S2048_S4196352x1_S4196352_n_0_n_n_0_1_1_wf := rfl
    rw [hd, gather_vec_apply (by decide), gatheredRow_node _ e (src e) (v49_at e), v43_at]
  have h58 : val_main_v58 (F := Ideal) x1 (ix1 e) = Gcn.dinv (fun s t => x1 (ix2 s t)) (dst e) := by
    unfold val_main_v58
    have hd : gather_S2048_S4196352x1_S4196352_n_0_n_n_0_1_1
        = vecGatherDims 2048 4196352 Facts₀.gather_S2048_S4196352x1_S4196352_n_0_n_n_0_1_1_wf := rfl
    rw [hd, gather_vec_apply (by decide), gatheredRow_node _ e (dst e) (v57_at e), v43_at]
  rw [val_main_v59_apply, val_main_v51_apply, h50, h58]
  rfl

/-- An edge's message: its normalised weight times the source's transformed features. -/
theorem v70_at (e : Fin 4196352) (f : Fin 32) :
    val_main_v70 (F := Ideal) x0 x1 x2 (ix2 e f)
      = val_main_v59 (F := Ideal) x1 (ix1 e) * val_main_v26 (F := Ideal) x0 x2 (ix2 (src e) f) := by
  have hi : idx_main_v61 (idx_main_v69 (ix2 e f)) = ix1 e := funext fun a => match a with | ⟨0, _⟩ => rfl
  have h68 : val_main_v68 (F := Ideal) x0 x2 (ix2 e f) = val_main_v26 (F := Ideal) x0 x2 (ix2 (src e) f) := by
    unfold val_main_v68
    have hd : gather_S2048x32_S4196352x1_S4196352x32_1_0_n_n_0_1_132
        = rowGatherDims 2048 4196352 32 Facts₀.gather_S2048x32_S4196352x1_S4196352x32_1_0_n_n_0_1_132_wf := rfl
    rw [hd, gather_rows_apply (by decide), gatheredRow_node _ e (src e) (v67_at e)]
  rw [val_main_v70_apply, val_main_v69_apply, val_main_v61_apply, hi, h68]
  rfl

/-- The messages summed into their destinations, onto a zero: one term per source node and the self-loop's. -/
theorem v77_at (d : Fin 2048) (f : Fin 32) :
    val_main_v77 (F := Ideal) x0 x1 x2 (ix2 d f)
      = 0 + ((∑ s : Fin 2048, ((Gcn.dinv (fun s t => x1 (ix2 s t)) s * x1 (ix2 s d)) * Gcn.dinv (fun s t => x1 (ix2 s t)) d)
                * (∑ k : Fin 32, x0 (ix2 s k) * x2 (ix2 f k)))
            + ((Gcn.dinv (fun s t => x1 (ix2 s t)) d * 1) * Gcn.dinv (fun s t => x1 (ix2 s t)) d)
                * (∑ k : Fin 32, x0 (ix2 d k) * x2 (ix2 f k))) := by
  unfold val_main_v77
  have hd : scatter_S2048x32_S4196352x1_S4196352x32_1_0_0_1
      = rowScatterDims 2048 4196352 32 Facts₀.scatter_S2048x32_S4196352x1_S4196352x32_1_0_0_1_wf := rfl
  rw [hd, scatter_edges_rows _ _ _ (fun e => v76_at e), val_main_v60_apply, val_main_cst_15_apply]
  simp only [v70_at, v59_at, v24_dense, v24_loop, src_denseEdge, dst_denseEdge, src_loopEdge, dst_loopEdge, v26_at]
  show Ideal.ofBits .f32 0x00000000#32 + _ = _
  rw [Ideal.ofBits_zero_f32]

/-- THE FIRST LAYER, rectified: node `d`, feature `f`. -/
theorem v81_at (d : Fin 2048) (f : Fin 32) :
    val_main_v81 (F := Ideal) x0 x1 x2 x3 (ix2 d f)
      = max (Gcn.layer (fun s t => x1 (ix2 s t)) (fun g k => x2 (ix2 g k)) (fun g => x3 (ix1 g))
          (fun k s => x0 (ix2 s k)) f d) 0 := by
  have hi : idx_main_v78 (idx_main_v79 (ix2 d f)) = ix1 f := funext fun a => match a with | ⟨0, _⟩ => rfl
  rw [val_main_v81_apply, val_main_v80_apply, v77_at, val_main_v79_apply, val_main_v78_apply, hi,
    val_main_call2_v0_apply, val_main_call2_cst_apply]
  show max (_ + x3 (ix1 f)) (Ideal.ofBits .f32 0x00000000#32) = _
  rw [Ideal.ofBits_zero_f32]
  exact congrArg (max · 0) (Gcn.layer_eq_messages (fun s t => x1 (ix2 s t)) (fun g k => x2 (ix2 g k))
    (fun g => x3 (ix1 g)) (fun k s => x0 (ix2 s k)) d f)

end Layer1

end Cert.ReferenceIdeal.RefValue

end
-- ==== Proof.RefLayer2.lean ====
/-
  The reference's second layer, the division by the temperature and the log-softmax: its result, entry by entry.

  The second layer rebuilds the edge list, the weights, the degrees and the normalisers (the same values as the
  first layer's) and passes the rectified first layer through the same message passing with the second weight
  matrix and bias. Dividing by the temperature's binary value is multiplying by its exact reciprocal. The
  log-softmax subtracts each node's maximal class score and then the logarithm of the sum of the exponentials.
-/
import proofs.«162544_g17308718202953_retrytranche2_243_3_alg».proof.Proof.RefLayer1

noncomputable section

namespace Cert.ReferenceIdeal.RefValue

open Cert.ReferenceIdeal Cert.ReferenceIdeal.Gen Cert.ReferenceIdeal.ReadP
open Idealize.ShloMosaic Idealize.ShloMosaic.ValueIdx RowOps Gcn

variable {F : FTy → Type} [FloatOps F]

/-! ## The second layer recomputes the edge list, the weights, the degree and the normaliser: the same values -/

theorem v83_at (e : Fin 4196352) : val_main_v83 (F := F) (ix1 e) = BitVec.ofNat 32 (srcOf e) := by
  unfold val_main_v83
  rw [concat_edges_apply]
  unfold srcOf
  by_cases hlt : e.val < 4194304
  · rw [dif_pos hlt, if_pos hlt]; exact v2_at ⟨e.val, hlt⟩
  · rw [dif_neg hlt, if_neg hlt, val_main_v82_apply]

theorem v84_at (e : Fin 4196352) : val_main_v84 (F := F) (ix1 e) = BitVec.ofNat 32 (dstOf e) := by
  unfold val_main_v84
  rw [concat_edges_apply]
  unfold dstOf
  by_cases hlt : e.val < 4194304
  · rw [dif_pos hlt, if_pos hlt]; exact v5_at ⟨e.val, hlt⟩
  · rw [dif_neg hlt, if_neg hlt, val_main_v82_apply]

theorem v86_dense (x1 : (⟨S2048x2048, .f32⟩ : BufTy).Contents (Elt Ideal)) (s d : Fin 2048) :
    val_main_v86 (F := Ideal) x1 (ix1 (denseEdge s d)) = x1 (ix2 s d) := by
  have hs := s.isLt
  have hd := d.isLt
  unfold val_main_v86
  rw [concat_edges_apply, dif_pos (by show s.val * 2048 + d.val < 4194304; omega), v19_at]
  congr 1
  funext a
  match a with
  | ⟨0, _⟩ => apply Fin.ext; show (s.val * 2048 + d.val) / 2048 = s.val; omega
  | ⟨1, _⟩ => apply Fin.ext; show (s.val * 2048 + d.val) % 2048 = d.val; omega

theorem v86_loop (x1 : (⟨S2048x2048, .f32⟩ : BufTy).Contents (Elt Ideal)) (d : Fin 2048) :
    val_main_v86 (F := Ideal) x1 (ix1 (loopEdge d)) = 1 := by
  have hd := d.isLt
  unfold val_main_v86
  rw [concat_edges_apply, dif_neg (by show ¬ 4194304 + d.val < 4194304; omega), val_main_v85_apply, val_main_cst_20_apply]
  exact Gcn.Consts.ofBits_one

theorem v95_at (e : Fin 4196352) : val_main_v95 (F := F) (col0 e) = BitVec.ofNat 32 (dstOf e) := by
  have hi : idx_main_v95 (col0 e) = ix1 e := funext fun a => match a with | ⟨0, _⟩ => rfl
  rw [val_main_v95_apply, hi, val_main_v94_apply, val_main_v91_apply, val_main_v90_apply, val_main_c_22_apply, v84_at]
  exact wrap_node (dstOf_lt e) _

theorem v111_at (e : Fin 4196352) : val_main_v111 (F := F) (col0 e) = BitVec.ofNat 32 (srcOf e) := by
  have hi : idx_main_v111 (col0 e) = ix1 e := funext fun a => match a with | ⟨0, _⟩ => rfl
  rw [val_main_v111_apply, hi, val_main_v110_apply, val_main_v107_apply, val_main_v106_apply, val_main_c_29_apply, v83_at]
  exact wrap_node (srcOf_lt e) _

theorem v119_at (e : Fin 4196352) : val_main_v119 (F := F) (col0 e) = BitVec.ofNat 32 (dstOf e) := by
  have hi : idx_main_v119 (col0 e) = ix1 e := funext fun a => match a with | ⟨0, _⟩ => rfl
  rw [val_main_v119_apply, hi, val_main_v118_apply, val_main_v115_apply, val_main_v114_apply, val_main_c_31_apply, v84_at]
  exact wrap_node (dstOf_lt e) _

theorem v129_at (e : Fin 4196352) : val_main_v129 (F := F) (col0 e) = BitVec.ofNat 32 (srcOf e) := by
  have hi : idx_main_v129 (col0 e) = ix1 e := funext fun a => match a with | ⟨0, _⟩ => rfl
  rw [val_main_v129_apply, hi, val_main_v128_apply, val_main_v125_apply, val_main_v124_apply, val_main_c_34_apply, v83_at]
  exact wrap_node (srcOf_lt e) _

theorem v138_at (e : Fin 4196352) : val_main_v138 (F := F) (col0 e) = BitVec.ofNat 32 (dstOf e) := by
  have hi : idx_main_v138 (col0 e) = ix1 e := funext fun a => match a with | ⟨0, _⟩ => rfl
  rw [val_main_v138_apply, hi, val_main_v137_apply, val_main_v134_apply, val_main_v133_apply, val_main_c_36_apply, v84_at]
  exact wrap_node (dstOf_lt e) _

theorem v96_at (x1 : (⟨S2048x2048, .f32⟩ : BufTy).Contents (Elt Ideal)) (d : Fin 2048) :
    val_main_v96 (F := Ideal) x1 (ix1 d) = Gcn.deg (fun s t => x1 (ix2 s t)) d := by
  unfold val_main_v96
  have hd : scatter_S2048_S4196352x1_S4196352_n_0_0_1
      = vecScatterDims 2048 4196352 Facts₀.scatter_S2048_S4196352x1_S4196352_n_0_0_1_wf := rfl
  rw [hd, scatter_edges_vec _ _ _ (fun e => v95_at e), val_main_v89_apply, val_main_cst_21_apply]
  simp only [v86_dense, v86_loop]
  show Ideal.ofBits .f32 0x00000000#32 + _ = _
  rw [Ideal.ofBits_zero_f32, zero_add]
  rfl

theorem v105_at (x1 : (⟨S2048x2048, .f32⟩ : BufTy).Contents (Elt Ideal)) (d : Fin 2048) :
    val_main_v105 (F := Ideal) x1 (ix1 d) = Gcn.dinv (fun s t => x1 (ix2 s t)) d := by
  rw [val_main_v105_apply, val_main_v98_apply, val_main_v104_apply, val_main_v102_apply, val_main_v101_apply,
    val_main_v100_apply, v96_at, val_main_v97_apply, val_main_cst_24_apply, val_main_v99_apply, val_main_cst_25_apply,
    val_main_v103_apply, val_main_cst_27_apply, val_main_call3_v1_apply, val_main_call3_v0_apply, val_main_cst_26_apply,
    val_main_call4_v1_apply, val_main_call4_v0_apply, val_main_cst_28_apply]
  show Scalar.select (Ideal.cmp .ogt _ (Ideal.ofBits .f32 0x00000000#32))
      (Ideal.div (Ideal.ofBits .f32 0x3F800000#32) (Ideal.sqrt (Scalar.select (Ideal.cmp .ogt _ (Ideal.ofBits .f32 0x00000000#32)) _
        (Ideal.ofBits .f32 0x3F800000#32)))) (Ideal.ofBits .f32 0x00000000#32) = _
  rw [Ideal.ofBits_zero_f32, Gcn.Consts.ofBits_one]
  exact dinv_select _

section Layer2

variable (x0 : (⟨S2048x32, .f32⟩ : BufTy).Contents (Elt Ideal)) (x1 : (⟨S2048x2048, .f32⟩ : BufTy).Contents (Elt Ideal))
  (x2 : (⟨S32x32, .f32⟩ : BufTy).Contents (Elt Ideal)) (x3 : (⟨S32, .f32⟩ : BufTy).Contents (Elt Ideal))
  (x4 : (⟨S16x32, .f32⟩ : BufTy).Contents (Elt Ideal)) (x5 : (⟨S16, .f32⟩ : BufTy).Contents (Elt Ideal))

/-- The second layer's linear map, node-major, over the rectified first layer. -/
theorem v88_at (s : Fin 2048) (f : Fin 16) :
    val_main_v88 (F := Ideal) x0 x1 x2 x3 x4 (ix2 s f)
      = ∑ k : Fin 32, val_main_v81 (F := Ideal) x0 x1 x2 x3 (ix2 s k) * x4 (ix2 f k) := by
  rw [val_main_v88_apply]
  refine Finset.sum_congr rfl fun k _ => ?_
  rw [val_main_v87_apply]
  have hl : lidx_main_v88 (ix2 s f) k = ix2 s k := funext fun a => match a with | ⟨0, _⟩ => rfl | ⟨1, _⟩ => rfl
  have hr : idx_main_v87 (ridx_main_v88 (ix2 s f) k) = ix2 f k :=
    funext fun a => match a with | ⟨0, _⟩ => rfl | ⟨1, _⟩ => rfl
  rw [hl, hr]

theorem v121_at (e : Fin 4196352) :
    val_main_v121 (F := Ideal) x1 (ix1 e)
      = (Gcn.dinv (fun s t => x1 (ix2 s t)) (src e) * val_main_v86 (F := Ideal) x1 (ix1 e)) * Gcn.dinv (fun s t => x1 (ix2 s t)) (dst e) := by
  have h112 : val_main_v112 (F := Ideal) x1 (ix1 e) = Gcn.dinv (fun s t => x1 (ix2 s t)) (src e) := by
    unfold val_main_v112
    have hd : gather_S2048_S4196352x1_S4196352_n_0_n_n_0_1_1
        = vecGatherDims 2048 4196352 Facts₀.gather_S2048_S4196352x1_S4196352_n_0_n_n_0_1_1_wf := rfl
    rw [hd, gather_vec_apply (by decide), gatheredRow_node _ e (src e) (v111_at e), v105_at]
  have h120 : val_main_v120 (F := Ideal) x1 (ix1 e) = Gcn.dinv (fun s t => x1 (ix2 s t)) (dst e) := by
    unfold val_main_v120
    have hd : gather_S2048_S4196352x1_S4196352_n_0_n_n_0_1_1
        = vecGatherDims 2048 4196352 Facts₀.gather_S2048_S4196352x1_S4196352_n_0_n_n_0_1_1_wf := rfl
    rw [hd, gather_vec_apply (by decide), gatheredRow_node _ e (dst e) (v119_at e), v105_at]
  rw [val_main_v121_apply, val_main_v113_apply, h112, h120]
  rfl

theorem v132_at (e : Fin 4196352) (f : Fin 16) :
    val_main_v132 (F := Ideal) x0 x1 x2 x3 x4 (ix2 e f)
      = val_main_v121 (F := Ideal) x1 (ix1 e) * val_main_v88 (F := Ideal) x0 x1 x2 x3 x4 (ix2 (src e) f) := by
  have hi : idx_main_v123 (idx_main_v131 (ix2 e f)) = ix1 e := funext fun a => match a with | ⟨0, _⟩ => rfl
  have h130 : val_main_v130 (F := Ideal) x0 x1 x2 x3 x4 (ix2 e f)
      = val_main_v88 (F := Ideal) x0 x1 x2 x3 x4 (ix2 (src e) f) := by
    unfold val_main_v130
    have hd : gather_S2048x16_S4196352x1_S4196352x16_1_0_n_n_0_1_116
        = rowGatherDims 2048 4196352 16 Facts₀.gather_S2048x16_S4196352x1_S4196352x16_1_0_n_n_0_1_116_wf := rfl
    rw [hd, gather_rows_apply (by decide), gatheredRow_node _ e (src e) (v129_at e)]
  rw [val_main_v132_apply, val_main_v131_apply, val_main_v123_apply, hi, h130]
  rfl

theorem v139_at (d : Fin 2048) (f : Fin 16) :
    val_main_v139 (F := Ideal) x0 x1 x2 x3 x4 (ix2 d f)
      = 0 + ((∑ s : Fin 2048, ((Gcn.dinv (fun s t => x1 (ix2 s t)) s * x1 (ix2 s d)) * Gcn.dinv (fun s t => x1 (ix2 s t)) d)
                * (∑ k : Fin 32, val_main_v81 (F := Ideal) x0 x1 x2 x3 (ix2 s k) * x4 (ix2 f k)))
            + ((Gcn.dinv (fun s t => x1 (ix2 s t)) d * 1) * Gcn.dinv (fun s t => x1 (ix2 s t)) d)
                * (∑ k : Fin 32, val_main_v81 (F := Ideal) x0 x1 x2 x3 (ix2 d k) * x4 (ix2 f k))) := by
  unfold val_main_v139
  have hd : scatter_S2048x16_S4196352x1_S4196352x16_1_0_0_1
      = rowScatterDims 2048 4196352 16 Facts₀.scatter_S2048x16_S4196352x1_S4196352x16_1_0_0_1_wf := rfl
  rw [hd, scatter_edges_rows _ _ _ (fun e => v138_at e), val_main_v122_apply, val_main_cst_33_apply]
  simp only [v132_at, v121_at, v86_dense, v86_loop, src_denseEdge, dst_denseEdge, src_loopEdge, dst_loopEdge, v88_at]
  show Ideal.ofBits .f32 0x00000000#32 + _ = _
  rw [Ideal.ofBits_zero_f32]

/-- THE SECOND LAYER over the rectified first: node `d`, class `f`. -/
theorem v142_at (d : Fin 2048) (f : Fin 16) :
    val_main_v142 (F := Ideal) x0 x1 x2 x3 x4 x5 (ix2 d f)
      = Gcn.layer (fun s t => x1 (ix2 s t)) (fun g k => x4 (ix2 g k)) (fun g => x5 (ix1 g))
          (fun k s => max (Gcn.layer (fun s t => x1 (ix2 s t)) (fun g j => x2 (ix2 g j)) (fun g => x3 (ix1 g)) (fun j t => x0 (ix2 t j)) k s) 0)
          f d := by
  have hi : idx_main_v140 (idx_main_v141 (ix2 d f)) = ix1 f := funext fun a => match a with | ⟨0, _⟩ => rfl
  rw [val_main_v142_apply, v139_at, val_main_v141_apply, val_main_v140_apply, hi]
  simp only [v81_at]
  exact Gcn.layer_eq_messages (fun s t => x1 (ix2 s t)) (fun g k => x4 (ix2 g k)) (fun g => x5 (ix1 g))
    (fun k s => max (Gcn.layer (fun s t => x1 (ix2 s t)) (fun g j => x2 (ix2 g j)) (fun g => x3 (ix1 g)) (fun j t => x0 (ix2 t j)) k s) 0) d f

/-- The class scores: the second layer divided by the temperature. -/
theorem v144_at (d : Fin 2048) (f : Fin 16) :
    val_main_v144 (F := Ideal) x0 x1 x2 x3 x4 x5 (ix2 d f)
      = Gcn.logits (fun s t => x1 (ix2 s t)) Gcn.scale (fun s k => x0 (ix2 s k)) (fun g k => x2 (ix2 g k)) (fun g => x3 (ix1 g))
          (fun g k => x4 (ix2 g k)) (fun g => x5 (ix1 g)) f d := by
  rw [val_main_v144_apply, v142_at, val_main_v143_apply, val_main_cst_38_apply]
  exact Gcn.Consts.div_temperature _

/-- The row of an index of the reduced array with the class put back. -/
theorem lift_class (h : S2048x16.Reduces [1] S2048) (d : Fin 2048) (k : Fin (S2048x16.size 1)) :
    h.lift (ix1 d) k = ix2 d (⟨k.val, k.isLt⟩ : Fin 16) := by
  funext c; apply Fin.ext
  fin_cases c <;> rfl

/-- THE REFERENCE'S RESULT, entry by entry: the log-softmax of each node's class scores. -/
theorem v145_at (d : Fin 2048) (f : Fin 16) :
    val_main_v145 (F := Ideal) x0 x1 x2 x3 x4 x5 (ix2 d f)
      = Gcn.out (fun s t => x1 (ix2 s t)) Gcn.scale (fun s k => x0 (ix2 s k)) (fun g k => x2 (ix2 g k)) (fun g => x3 (ix1 g))
          (fun g k => x4 (ix2 g k)) (fun g => x5 (ix1 g)) d f := by
  -- the row's maximum, taken from minus infinity
  have hmax : val_main_call5_v2 (F := Ideal) x0 x1 x2 x3 x4 x5 (ix1 d)
      = (Finset.univ : Finset (Fin 16)).fold max ⊥ (fun g => val_main_v144 (F := Ideal) x0 x1 x2 x3 x4 x5 (ix2 d g)) := by
    rw [val_main_call5_v2_apply, val_main_call5_v1_apply, val_main_call5_cst_0_apply]
    unfold val_main_call5_v0
    rw [Host.reduce_eq_fold_single FloatOps.maximumf _ _ reducesTo_S2048x16_S2048_d1 (by decide) h_S_]
    show max (Ideal.ofBits .f32 0xFF800000#32) ((Finset.univ : Finset (Fin 16)).fold max (Ideal.ofBits .f32 0xFF800000#32) _) = _
    rw [Gcn.Consts.ofBits_neg_inf, max_eq_right bot_le]
    refine congrArg (fun φ : Fin 16 → EReal => (Finset.univ : Finset (Fin 16)).fold max ⊥ φ) (funext fun g => ?_)
    show val_main_v144 (F := Ideal) x0 x1 x2 x3 x4 x5 (Shape.Reduces.lift _ (ix1 d) g) = _
    rw [lift_class]
    rfl
  have hi4 : idx_main_call5_v3 (idx_main_call5_v4 (ix2 d f)) = ix1 d := funext fun a => match a with | ⟨0, _⟩ => rfl
  have hi10 : idx_main_call5_v8 (idx_main_call5_v10 (ix2 d f)) = ix1 d := funext fun a => match a with | ⟨0, _⟩ => rfl
  have hshift : ∀ g : Fin 16, val_main_call5_v5 (F := Ideal) x0 x1 x2 x3 x4 x5 (ix2 d g)
      = val_main_v144 (F := Ideal) x0 x1 x2 x3 x4 x5 (ix2 d g)
        - (Finset.univ : Finset (Fin 16)).fold max ⊥ (fun g' => val_main_v144 (F := Ideal) x0 x1 x2 x3 x4 x5 (ix2 d g')) := by
    intro g
    have hig : idx_main_call5_v3 (idx_main_call5_v4 (ix2 d g)) = ix1 d := funext fun a => match a with | ⟨0, _⟩ => rfl
    rw [val_main_call5_v5_apply, val_main_call5_v4_apply, val_main_call5_v3_apply, hig, hmax]
    rfl
  rw [val_main_v145_apply, hshift, val_main_call5_v10_apply, val_main_call5_v9_apply, val_main_call5_v8_apply, hi10,
    val_main_call5_v7_apply, val_main_call5_cst_1_apply]
  have hk : ∀ k : Fin 16, idx_main_call5_v7 (ix1 d) k = ix2 d k :=
    fun k => funext fun a => match a with | ⟨0, _⟩ => rfl | ⟨1, _⟩ => rfl
  simp only [hk, val_main_call5_v6_apply, hshift, v144_at]
  show _ - Ideal.log (Ideal.ofBits .f32 0x00000000#32 + _) = _
  rw [Ideal.ofBits_zero_f32, zero_add]
  rfl

/-- The reference's result array is the specification's. -/
theorem result_eq :
    val_main_v145 (F := Ideal) x0 x1 x2 x3 x4 x5 = Gcn.G x0 x1 x2 x3 x4 x5 := by
  funext i
  obtain ⟨d, f, rfl⟩ : ∃ (d : Fin 2048) (f : Fin 16), i = ix2 d f := ⟨i 0, i 1, eq_ix2 i⟩
  exact v145_at x0 x1 x2 x3 x4 x5 d f

end Layer2

end Cert.ReferenceIdeal.RefValue

end
-- ==== Proof.KernelLayout.lean ====
/-
  Readings, at an entry given by its coordinates, of the vector operations a feature-major kernel body uses beyond
  the pointwise ones: a sum and a maximum down the rows of a matrix (one value per column), and a column [a, 1]
  spread across [a, b]. General in the extents.
-/
import Idealize.ShloMosaic.PureOps.Ideal.Laws
import Idealize.ShloMosaic.Lib.ValueIdx
import Idealize.ShloMosaic.Lib.ValueLayout

noncomputable section

namespace Cert.KernelIdeal.KValue

open Idealize.ShloMosaic Idealize.ShloMosaic.ValueIdx

/-- Inserting the row coordinate `s` into the column index `d` gives the entry (s, d). -/
theorem lift_axis0 {n m : ℕ} (h : (⟨2, ![n, m]⟩ : Shape).Reduces [0] ⟨1, ![m]⟩) (d : Fin m) (s : Fin n) :
    h.lift (ix1 d) s = ix2 s d := by
  funext a; apply Fin.ext
  match a with
  | ⟨0, _⟩ => rfl
  | ⟨1, _⟩ => rfl

/-- The sum down the rows of an [n, m] matrix, at column `d`: ∑ₛ src(s, d). -/
theorem sum_rows_apply {n m : ℕ} (src : FVec Ideal ⟨2, ![n, m]⟩ .f32) (acc : BitVec 32)
    (h : (⟨2, ![n, m]⟩ : Shape).Reduces [0] ⟨1, ![m]⟩) (hφ : FKind.Formats .f32)
    (hacc : acc = FKind.add.neutral .f32 hφ) (d : Fin m) :
    multiReduction .add [0] ⟨1, ![m]⟩ src acc h hφ hacc (ix1 d) = ∑ s : Fin n, src (ix2 s d) := by
  refine (Ideal.multiReduction_add_single src acc h hφ hacc (ix1 d)).trans ?_
  exact Finset.sum_congr rfl fun s _ => congrArg src (lift_axis0 h d s)

/-- The maximum down the rows of an [n, m] matrix, at column `d`: the fold of max, from the accumulator's value,
    over src(g, d). -/
theorem max_rows_apply {n m : ℕ} (src : FVec Ideal ⟨2, ![n, m]⟩ .f32) (acc : BitVec 32)
    (h : (⟨2, ![n, m]⟩ : Shape).Reduces [0] ⟨1, ![m]⟩) (hφ : FKind.Formats .f32)
    (hacc : acc = FKind.maximumf.neutral .f32 hφ) (d : Fin m) :
    multiReduction .maximumf [0] ⟨1, ![m]⟩ src acc h hφ hacc (ix1 d)
      = (Finset.univ : Finset (Fin n)).fold max (Ideal.ofBits .f32 acc) (fun g => src (ix2 g d)) := by
  refine (Ideal.multiReduction_maximumf_single src acc h hφ hacc (ix1 d)).trans ?_
  exact congrArg (Finset.fold max (Ideal.ofBits .f32 acc) · Finset.univ)
    (funext fun g => congrArg src (lift_axis0 h d g))

variable {α : Type}

/-- A column [a, 1] spread across [a, b] reads, at (p, c), the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.KValue

end
-- ==== Proof.KernelGuard.lean ====
/-
  The guarded reciprocal square root at one entry. A kernel computes deg^(-1/2) "where the degree is positive, zero
  elsewhere" as select (deg > 0) (rsqrt (select (deg > 0) deg one)) zero: the inner select keeps the argument of the
  root positive. Under the guard the inner select returns the degree itself, so whatever the second literal denotes,
  the term is: rsqrt deg if 0 < deg, else the value of the zero pattern, which is 0.
-/
import Idealize.ShloMosaic.PureOps.Ideal.Laws
import Idealize.ShloMosaic.Lib.ValueIdx

noncomputable section

namespace Cert.KernelIdeal.KValue

open Idealize.ShloMosaic Idealize.ShloMosaic.ValueIdx

/-- The comparison "x > 0" as a bit: 1 exactly when 0 < x. -/
theorem cmp_ogt_zero (x : Ideal .f32) :
    FloatOps.cmpf .ogt x (Scalar.ofBits .f32 0x00000000#32) = if 0 < x then 1#1 else 0#1 := by
  rw [Ideal.cmpf_def]
  show BitVec.ofBool (decide (Ideal.ofBits .f32 0x00000000#32 < x)) = _
  rw [Ideal.ofBits_zero_f32]
  by_cases h : (0 : EReal) < x
  · rw [if_pos h, decide_eq_true h]; rfl
  · rw [if_neg h, decide_eq_false h]; rfl

/-- The guarded reciprocal square root: rsqrt x where 0 < x, zero elsewhere, whatever pattern `one` pads the root's
    argument with off the guard. -/
theorem guarded_rsqrt (one : BitVec 32) (x : Ideal .f32) :
    Scalar.select (FloatOps.cmpf .ogt x (Scalar.ofBits .f32 0x00000000#32))
        (FloatOps.rsqrt (Scalar.select (FloatOps.cmpf .ogt x (Scalar.ofBits .f32 0x00000000#32)) x (Scalar.ofBits .f32 one)))
        (Scalar.ofBits .f32 0x00000000#32)
      = if 0 < x then Ideal.rsqrt x else 0 := by
  rw [cmp_ogt_zero]
  by_cases h : (0 : EReal) < x
  · rw [if_pos h, if_pos h, select_one, select_one]; rfl
  · rw [if_neg h, if_neg h, select_zero]; exact Ideal.ofBits_zero_f32

end Cert.KernelIdeal.KValue

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.KernelLayer.lean ====
/-
  The three pieces of one graph-convolution layer as a feature-major kernel body computes them, each read at an
  entry: a row of per-node factors spread over the features and multiplied in; the aggregation — the messages scaled at
  their source node, summed along the edges into the target node by a matrix product with the adjacency matrix, and
  scaled at the target —; and the bias column spread across the nodes. General in the number of features and of nodes.
-/
import Idealize.ShloMosaic.PureOps.Ideal.Laws
import Idealize.ShloMosaic.Lib.ValueIdx
import Idealize.ShloMosaic.Lib.ValueLayout
import Idealize.ShloMosaic.Lib.Pipeline.Value
import proofs.«162544_g17308718202953_retrytranche2_243_3_alg».proof.Proof.LibPlainDot
import proofs.«162544_g17308718202953_retrytranche2_243_3_alg».proof.Proof.KernelLayout

noncomputable section

namespace Cert.KernelIdeal.KValue

open Idealize.ShloMosaic Idealize.ShloMosaic.ValueIdx

/-! ## The pieces of one layer, at an entry -/

section Generic
variable {Fo n : ℕ}

/-- A row vector spread over the rows of a matrix and multiplied in scales column `s` by the row's entry `s`. -/
theorem scaled_apply (dv : FVec Ideal ⟨2, ![1, n]⟩ .f32) (z : FVec Ideal ⟨2, ![Fo, n]⟩ .f32)
    (hb : (⟨2, ![1, n]⟩ : Shape).Broadcasts ⟨2, ![Fo, n]⟩) (f : Fin Fo) (s : Fin n) :
    mulf (broadcastTo ⟨2, ![Fo, n]⟩ dv hb) z (ix2 f s) = dv (ix2 (0 : Fin 1) s) * z (ix2 f s) := by
  rw [mulf_apply, broadcastTo_1b_ab_apply]

/-- The aggregation of a layer: the messages scaled at the source, summed along the edges into `d`, scaled at `d`. -/
theorem agg_apply (dv : FVec Ideal ⟨2, ![1, n]⟩ .f32) (z : FVec Ideal ⟨2, ![Fo, n]⟩ .f32) (adj : FVec Ideal ⟨2, ![n, n]⟩ .f32)
    (hb : (⟨2, ![1, n]⟩ : Shape).Broadcasts ⟨2, ![Fo, n]⟩)
    (dd : DotDims ⟨2, ![Fo, n]⟩ ⟨2, ![n, n]⟩ ⟨2, ![Fo, n]⟩) (hd : dd = DotDims.plain Fo n n)
    (prec : Option ContractPrecision) (f : Fin Fo) (d : Fin n) :
    mulf (broadcastTo ⟨2, ![Fo, n]⟩ dv hb)
        (matmul dd prec (mulf (broadcastTo ⟨2, ![Fo, n]⟩ dv hb) z) adj (constant (F := Ideal) ⟨2, ![Fo, n]⟩ .f32 0x00000000#32)) (ix2 f d)
      = dv (ix2 (0 : Fin 1) d) * ∑ s : Fin n, (dv (ix2 (0 : Fin 1) s) * z (ix2 f s)) * adj (ix2 s d) := by
  rw [scaled_apply]
  refine congrArg (dv (ix2 (0 : Fin 1) d) * ·) ?_
  refine (matmul_plain_zero_apply dd hd prec _ adj f d).trans ?_
  exact Finset.sum_congr rfl fun s _ => congrArg (· * adj (ix2 s d)) (scaled_apply dv z hb f s)

/-- The bias column spread across the nodes reads the bias of the row's feature. -/
theorem bias_apply (b : FVec Ideal ⟨2, ![Fo, 1]⟩ .f32) (hs : (⟨2, ![Fo, 1]⟩ : Shape).ShapeCasts ⟨2, ![Fo, 1]⟩)
    (hb : (⟨2, ![Fo, 1]⟩ : Shape).Broadcasts ⟨2, ![Fo, n]⟩) (f : Fin Fo) (s : Fin n) :
    broadcastTo ⟨2, ![Fo, n]⟩ (shapeCast ⟨2, ![Fo, 1]⟩ b hs) hb (ix2 f s) = b (ix2 f (0 : Fin 1)) := by
  rw [broadcastTo_a1_ab_apply, shapeCast_self]

end Generic

end Cert.KernelIdeal.KValue

end
-- ==== Proof.KernelStages.lean ====
/-
  The two layers of the kernel body, stage by stage, at an entry. Each named value of the body is read at explicit
  coordinates as the specification's term over the staged arrays: the normalisation row is dinv (the guarded reciprocal
  square root of the column sum plus one), its square, the first layer's linear map, the second layer's linear map over
  the rectified first layer, the second layer's aggregated and self-loop messages, and the class scores.
-/
import proofs.«162544_g17308718202953_retrytranche2_243_3_alg».proof.Proof.Gen.KernelIdeal.Skeleton
import proofs.«162544_g17308718202953_retrytranche2_243_3_alg».proof.Proof.Spec
import proofs.«162544_g17308718202953_retrytranche2_243_3_alg».proof.Proof.Consts
import proofs.«162544_g17308718202953_retrytranche2_243_3_alg».proof.Proof.KernelLayout
import proofs.«162544_g17308718202953_retrytranche2_243_3_alg».proof.Proof.KernelGuard
import proofs.«162544_g17308718202953_retrytranche2_243_3_alg».proof.Proof.KernelLayer

noncomputable section

namespace Cert.KernelIdeal.KValue

open Cert.KernelIdeal Cert.KernelIdeal.Gen Idealize.ShloMosaic Idealize.ShloMosaic.ValueIdx

/-! ## The network's data as the staged arrays hold it -/

section Stages
variable (x0 : FVec Ideal S32x2048 .f32) (x1 : FVec Ideal S2048x2048 .f32) (x2 : FVec Ideal S32x32 .f32)
  (x3 : FVec Ideal S32x1 .f32) (x4 : FVec Ideal S16x32 .f32) (x5 : FVec Ideal S16x1 .f32)

/-- The adjacency matrix: entry (s, d). -/
abbrev adjOf : Fin 2048 → Fin 2048 → EReal := fun s d => x1 (ix2 s d)
/-- The node features, feature-major: feature k of node s. -/
abbrev featOf : Fin 32 → Fin 2048 → EReal := fun k s => x0 (ix2 k s)
/-- A weight matrix: output feature f, input feature k. -/
abbrev wOf {Fo K : ℕ} (w : FVec Ideal ⟨2, ![Fo, K]⟩ .f32) : Fin Fo → Fin K → EReal := fun f k => w (ix2 f k)
/-- A bias held as a column. -/
abbrev bOf {Fo : ℕ} (b : FVec Ideal ⟨2, ![Fo, 1]⟩ .f32) : Fin Fo → EReal := fun f => b (ix2 f (0 : Fin 1))

/-- The degree row: the column sum of the adjacency matrix plus one. -/
theorem deg_apply (u : Fin 1) (d : Fin 2048) :
    (addf (shapeCast S1x2048 (multiReduction (F := Ideal) .add [0] S2048 x1 0x00000000#32 reduces_S2048x2048_S2048 (.inl rfl) rfl) shapeCasts_S2048_S1x2048)
        (broadcast S1x2048 (Scalar.ofBits .f32 0x3F800000#32))) (ix2 u d)
      = Gcn.deg (adjOf x1) d := by
  rw [addf_apply, broadcast_apply, shapeCast_a_1a_apply]
  exact congrArg₂ (· + ·) (sum_rows_apply x1 _ _ _ _ d) Gcn.Consts.ofBits_one

/-- The normalisation row is `dinv`. -/
theorem pay2_apply (u : Fin 1) (d : Fin 2048) : k0_pay2 (F := Ideal) x1 (ix2 u d) = Gcn.dinv (adjOf x1) d := by
  unfold k0_pay2
  dsimp only
  exact (guarded_rsqrt 0x3F800000#32 _).trans
    (congrArg (fun t : EReal => if 0 < t then Ideal.rsqrt t else 0) (deg_apply x1 u d))

/-- Its square. -/
theorem pay3_apply (u : Fin 1) (d : Fin 2048) :
    k0_pay3 (F := Ideal) x1 (ix2 u d) = Gcn.dinv (adjOf x1) d * Gcn.dinv (adjOf x1) d := by
  unfold k0_pay3
  rw [mulf_apply, pay2_apply]

/-- The first layer's linear map. -/
theorem lin1_apply (f : Fin 32) (s : Fin 2048) :
    matmul dot_S32x32_S32x2048_S32x2048_1_0_0_1_n_n (some .fp32) x2 (shapeCast S32x2048 x0 shapeCasts_S32x2048_S32x2048)
        (constant (F := Ideal) S32x2048 .f32 0x00000000#32) (ix2 f s)
      = Gcn.lin (wOf x2) (featOf x0) f s := by
  rw [shapeCast_self]
  exact matmul_plain_zero_apply _ rfl _ x2 x0 f s

set_option maxHeartbeats 400000 in
/-- The second layer's linear map over the rectified first layer. -/
theorem pay4_apply (f : Fin 16) (d : Fin 2048) :
    k0_pay4 (F := Ideal) x1 x0 x2 x3 x4 (ix2 f d)
      = Gcn.lin (wOf x4) (fun k s => max (Gcn.layer (adjOf x1) (wOf x2) (bOf x3) (featOf x0) k s) 0) f d := by
  unfold k0_pay4
  refine (matmul_plain_zero_apply _ rfl _ x4 _ f d).trans ?_
  refine Finset.sum_congr rfl fun k _ => congrArg (x4 (ix2 f k) * ·) ?_
  rw [maximumf_apply, broadcast_apply, addf_apply, addf_apply, agg_apply (k0_pay2 (F := Ideal) x1) _ x1 _ dot_S32x2048_S2048x2048_S32x2048_1_0_0_1_n_n rfl, scaled_apply, bias_apply]
  simp only [pay2_apply, pay3_apply, lin1_apply]
  exact congrArg₂ max rfl Ideal.ofBits_zero_f32

/-- The second layer's aggregation: the messages scaled at the source, summed along the edges, scaled at `d`. -/
theorem pay5_apply (f : Fin 16) (d : Fin 2048) :
    k0_pay5 (F := Ideal) x1 x0 x2 x3 x4 (ix2 f d)
      = Gcn.dinv (adjOf x1) d
          * ∑ s : Fin 2048, (Gcn.dinv (adjOf x1) s * k0_pay4 (F := Ideal) x1 x0 x2 x3 x4 (ix2 f s)) * x1 (ix2 s d) := by
  unfold k0_pay5
  rw [agg_apply (k0_pay2 (F := Ideal) x1) _ x1 _ dot_S16x2048_S2048x2048_S16x2048_1_0_0_1_n_n rfl]
  simp only [pay2_apply]

/-- The second layer's self-loop message. -/
theorem pay6_apply (f : Fin 16) (d : Fin 2048) :
    k0_pay6 (F := Ideal) x1 x0 x2 x3 x4 (ix2 f d)
      = (Gcn.dinv (adjOf x1) d * Gcn.dinv (adjOf x1) d) * k0_pay4 (F := Ideal) x1 x0 x2 x3 x4 (ix2 f d) := by
  unfold k0_pay6
  rw [scaled_apply, pay3_apply]

/-- The class scores: the second layer's two messages and bias, times the scale. -/
theorem logits_apply (f : Fin 16) (d : Fin 2048) :
    ((k0_pay5 (F := Ideal) x1 x0 x2 x3 x4 (ix2 f d) + k0_pay6 (F := Ideal) x1 x0 x2 x3 x4 (ix2 f d)) + x5 (ix2 f (0 : Fin 1))) * Gcn.scale
      = Gcn.logits (adjOf x1) Gcn.scale (fun s k => x0 (ix2 k s)) (wOf x2) (bOf x3) (wOf x4) (bOf x5) f d := by
  rw [pay5_apply, pay6_apply]
  simp only [pay4_apply]
  rfl

end Stages

end Cert.KernelIdeal.KValue

end
-- ==== Proof.KernelSoftmax.lean ====
/-
  The end of the kernel body: the class scores (the second layer's two messages and the bias, times the scale) and
  the log-softmax down the sixteen classes, shifted by the column's maximum. The maximum's fold starts at the pattern of
  minus infinity, which denotes the bottom of the extended reals, so it is the specification's fold from ⊥.
-/
import proofs.«162544_g17308718202953_retrytranche2_243_3_alg».proof.Proof.Gen.KernelIdeal.Skeleton
import proofs.«162544_g17308718202953_retrytranche2_243_3_alg».proof.Proof.Spec
import proofs.«162544_g17308718202953_retrytranche2_243_3_alg».proof.Proof.Consts
import proofs.«162544_g17308718202953_retrytranche2_243_3_alg».proof.Proof.KernelLayout
import proofs.«162544_g17308718202953_retrytranche2_243_3_alg».proof.Proof.KernelLayer

noncomputable section

namespace Cert.KernelIdeal.KValue

open Cert.KernelIdeal Cert.KernelIdeal.Gen Idealize.ShloMosaic Idealize.ShloMosaic.ValueIdx

/-! ## The normalisation over the classes -/

section Softmax

/-- The maxima down the sixteen classes, as a row. -/
def colMax (v : FVec Ideal S16x2048 .f32) : FVec Ideal S1x2048 .f32 :=
  shapeCast S1x2048 (multiReduction (F := Ideal) .maximumf [0] S2048 v 0xFF800000#32 reduces_S16x2048_S2048 (.inl rfl) rfl) shapeCasts_S2048_S1x2048

/-- The sums down the sixteen classes, as a row. -/
def colSum (v : FVec Ideal S16x2048 .f32) : FVec Ideal S1x2048 .f32 :=
  shapeCast S1x2048 (multiReduction (F := Ideal) .add [0] S2048 v 0x00000000#32 reduces_S16x2048_S2048 (.inl rfl) rfl) shapeCasts_S2048_S1x2048

theorem colMax_apply (v : FVec Ideal S16x2048 .f32) (u : Fin 1) (d : Fin 2048) :
    colMax v (ix2 u d) = (Finset.univ : Finset (Fin 16)).fold max ⊥ (fun g => v (ix2 g d)) := by
  unfold colMax
  rw [shapeCast_a_1a_apply]
  exact (max_rows_apply v _ _ _ _ d).trans
    (congrArg (Finset.fold max · (fun g => v (ix2 g d)) Finset.univ) Gcn.Consts.ofBits_neg_inf)

theorem colSum_apply (v : FVec Ideal S16x2048 .f32) (u : Fin 1) (d : Fin 2048) :
    colSum v (ix2 u d) = ∑ g : Fin 16, v (ix2 g d) := by
  unfold colSum
  rw [shapeCast_a_1a_apply]
  exact sum_rows_apply v _ _ _ _ d

/-- The shifted log-softmax down the classes, as the body spells it. -/
def lsm (v : FVec Ideal S16x2048 .f32) : FVec Ideal S16x2048 .f32 :=
  subf (subf v (broadcastTo S16x2048 (colMax v) broadcasts_S1x2048_S16x2048))
    (broadcastTo S16x2048 (log (colSum (exp (subf v (broadcastTo S16x2048 (colMax v) broadcasts_S1x2048_S16x2048))))) broadcasts_S1x2048_S16x2048)

theorem exp_at {s : Shape} (x : FVec Ideal s .f32) (i : s.Idx) : exp x i = Ideal.exp (x i) := rfl
theorem log_at {s : Shape} (x : FVec Ideal s .f32) (i : s.Idx) : log x i = Ideal.log (x i) := rfl

theorem lsm_apply (v : FVec Ideal S16x2048 .f32) (f : Fin 16) (d : Fin 2048) :
    lsm v (ix2 f d) = Gcn.logSoftmax (fun g e => v (ix2 g e)) f d := by
  unfold lsm
  rw [subf_apply, subf_apply, broadcastTo_1b_ab_apply, broadcastTo_1b_ab_apply, colMax_apply, log_at, colSum_apply]
  simp only [exp_at, subf_apply, broadcastTo_1b_ab_apply, colMax_apply]
  rfl

/-- The class scores before normalisation, as the body spells them over the second layer's two messages. -/
def scores (v37 v39 : FVec Ideal S16x2048 .f32) (x5 : FVec Ideal S16x1 .f32) : FVec Ideal S16x2048 .f32 :=
  mulf (addf (addf v37 v39) (broadcastTo S16x2048 (shapeCast S16x1 x5 shapeCasts_S16x1_S16x1) broadcasts_S16x1_S16x2048))
    (broadcast S16x2048 (Named.named (F := Ideal) κ "fold_c_67108864_13421773" (φ := .f32) 0x40A00000#32))

theorem scores_apply (v37 v39 : FVec Ideal S16x2048 .f32) (x5 : FVec Ideal S16x1 .f32) (g : Fin 16) (d : Fin 2048) :
    scores v37 v39 x5 (ix2 g d) = ((v37 (ix2 g d) + v39 (ix2 g d)) + x5 (ix2 g (0 : Fin 1))) * Gcn.scale := by
  unfold scores
  rw [mulf_apply, addf_apply, addf_apply, bias_apply, broadcast_apply]
  exact congrArg (_ * ·) (IdealRules.named_const.ideal_named_scalar _ _ _ _ rfl)

/-- The stored value is the log-softmax of the scores. -/
theorem pay1_eq (v37 v39 : FVec Ideal S16x2048 .f32) (x5 : FVec Ideal S16x1 .f32) :
    k0_pay1 (F := Ideal) v37 v39 x5 = lsm (scores v37 v39 x5) := rfl

end Softmax

end Cert.KernelIdeal.KValue

end
-- ==== Proof.KernelPayload.lean ====
/-
  The value the kernel body stores, at class f and node d: the log-softmax of the class scores of the two-layer network
  over the staged arrays; and, with the features transposed and the two biases laid out as columns by the host
  operations before the call, the specification's result at (d, f).
-/
import proofs.«162544_g17308718202953_retrytranche2_243_3_alg».proof.Proof.KernelStages
import proofs.«162544_g17308718202953_retrytranche2_243_3_alg».proof.Proof.KernelSoftmax
import proofs.«162544_g17308718202953_retrytranche2_243_3_alg».proof.Proof.LibBroadcastInDim

noncomputable section

namespace Cert.KernelIdeal.KValue

open Cert.KernelIdeal Cert.KernelIdeal.Gen Idealize.ShloMosaic Idealize.ShloMosaic.ValueIdx

/-! ## The stored value at an entry -/

/-- What the body stores at class `f`, node `d`: the network's result there. -/
theorem payload_apply (x0 : FVec Ideal S32x2048 .f32) (x1 : FVec Ideal S2048x2048 .f32) (x2 : FVec Ideal S32x32 .f32)
    (x3 : FVec Ideal S32x1 .f32) (x4 : FVec Ideal S16x32 .f32) (x5 : FVec Ideal S16x1 .f32) (f : Fin 16) (d : Fin 2048) :
    k0_pay1 (F := Ideal) (k0_pay5 x1 x0 x2 x3 x4) (k0_pay6 x1 x0 x2 x3 x4) x5 (ix2 f d)
      = Gcn.logSoftmax (Gcn.logits (adjOf x1) Gcn.scale (fun s k => x0 (ix2 k s)) (wOf x2) (bOf x3) (wOf x4) (bOf x5)) f d := by
  rw [pay1_eq, lsm_apply]
  refine congrArg (fun L => Gcn.logSoftmax L f d) (funext fun g => funext fun e => ?_)
  rw [scores_apply]
  exact logits_apply x0 x1 x2 x3 x4 x5 g e

/-! ## Through the host operations before the call -/

/-- With the features transposed and the two biases laid out as columns before the call, the stored value at class
    `f`, node `d` is the specification's result at (d, f). -/
theorem payload_hosted (a0 : FVec Ideal S2048x32 .f32) (a1 : FVec Ideal S2048x2048 .f32) (a2 : FVec Ideal S32x32 .f32)
    (a3 : FVec Ideal S32 .f32) (a4 : FVec Ideal S16x32 .f32) (a5 : FVec Ideal S16 .f32)
    (ht : S2048x32.Transposes [1, 0] S32x2048) (h3 : S32.BroadcastsInDim S32x1 (![0] : Fin 1 → Fin 2))
    (h5 : S16.BroadcastsInDim S16x1 (![0] : Fin 1 → Fin 2)) (f : Fin 16) (d : Fin 2048) :
    k0_pay1 (F := Ideal)
        (k0_pay5 a1 (transpose S32x2048 [1, 0] a0 ht) a2 (broadcastInDim S32x1 ![0] h3 a3) a4)
        (k0_pay6 a1 (transpose S32x2048 [1, 0] a0 ht) a2 (broadcastInDim S32x1 ![0] h3 a3) a4)
        (broadcastInDim S16x1 ![0] h5 a5) (ix2 f d)
      = Gcn.G a0 a1 a2 a3 a4 a5 (ix2 d f) := by
  rw [payload_apply]
  show _ = Gcn.logSoftmax (Gcn.logits (fun s d => a1 (ix2 s d)) Gcn.scale (fun s k => a0 (ix2 s k)) (fun f k => a2 (ix2 f k))
    (fun f => a3 (ix1 f)) (fun f k => a4 (ix2 f k)) (fun f => a5 (ix1 f))) f d
  have e0 : (fun (s : Fin 2048) (k : Fin 32) => transpose S32x2048 [1, 0] a0 ht (ix2 k s)) = fun s k => a0 (ix2 s k) :=
    funext fun s => funext fun k => transpose_ix2_apply a0 ht k s
  have e3 : bOf (broadcastInDim S32x1 ![0] h3 a3) = fun f => a3 (ix1 f) :=
    funext fun f => broadcastInDim_a_a1_apply a3 h3 f 0
  have e5 : bOf (broadcastInDim S16x1 ![0] h5 a5) = fun f => a5 (ix1 f) :=
    funext fun f => broadcastInDim_a_a1_apply a5 h5 f 0
  rw [e0, e3, e5]

end Cert.KernelIdeal.KValue

end
-- ==== Proof.KernelBlocks.lean ====
/-
  From the kernel body's stored value to the array after the call. The call has no grid: one point, every window's
  block its whole array. Three of the staged arrays were written by host operations before the call (the features
  transposed, the two biases as columns); the rest are arguments as launched. So what the point writes back is the
  specification's result read feature-major, entry by entry; its block covers the array; and the array ends holding it.
-/
import proofs.«162544_g17308718202953_retrytranche2_243_3_alg».proof.Proof.Gen.KernelIdeal.Frame
import proofs.«162544_g17308718202953_retrytranche2_243_3_alg».proof.Proof.Spec
import proofs.«162544_g17308718202953_retrytranche2_243_3_alg».proof.Proof.KernelPayload
import Idealize.ShloMosaic.Lib.Pipeline.Value
import Idealize.ShloMosaic.Lib.ValueLayout
import Idealize.ShloMosaic.Lib.Tactic

noncomputable section

namespace Cert.KernelIdeal.KValue

open Cert.KernelIdeal Cert.KernelIdeal.Gen Idealize.ShloMosaic Idealize.ShloMosaic.TcCoe Idealize.ShloMosaic.Tactic
open Idealize.SL.Sem Idealize.ShloMosaic.ValueIdx
open Idealize.ShloMosaic.Pipeline (Dat)

variable (m : (ℓ : Loc nD τ sig) → Buf (Elt Ideal) ℓ) (ρ : Dev nD → PrngReg)

/-- The specification's result, feature-major: the result array transposed. -/
def GT (a0 : FVec Ideal S2048x32 .f32) (a1 : FVec Ideal S2048x2048 .f32) (a2 : FVec Ideal S32x32 .f32)
    (a3 : FVec Ideal S32 .f32) (a4 : FVec Ideal S16x32 .f32) (a5 : FVec Ideal S16 .f32) : S16x2048.Idx → EReal :=
  fun j => Gcn.G a0 a1 a2 a3 a4 a5 (ix2 (j 1) (j 0))

theorem hz : (![0, 0] : Fin 2 → Nat) = fun _ => 0 := funext fun a => by fin_cases a <;> rfl

/-! ## The arrays the host operations wrote before the call -/

/-- The first window's array is the features transposed. -/
theorem V_v0 (c : Dev nD) : (V m c main_v0 : S32x2048.Idx → EReal)
    = transpose S32x2048 [1, 0] (m ((c : Thread nD τ).loc main_arg0)) transposes_S2048x32_S32x2048_1_0 := by
  show StableHlo.after hostOps0 (fun b => m (c, b)) (Proc.devRef .tc main_v0) = _
  after_results

/-- The fourth window's array is the first bias as a column. -/
theorem V_v1 (c : Dev nD) : (V m c main_v1 : S32x1.Idx → EReal)
    = broadcastInDim S32x1 ![0] bcast_S32_S32x1_0 (m ((c : Thread nD τ).loc main_arg3)) := by
  show StableHlo.after hostOps0 (fun b => m (c, b)) (Proc.devRef .tc main_v1) = _
  after_results

/-- The sixth window's array is the second bias as a column. -/
theorem V_v2 (c : Dev nD) : (V m c main_v2 : S16x1.Idx → EReal)
    = broadcastInDim S16x1 ![0] bcast_S16_S16x1_0 (m ((c : Thread nD τ).loc main_arg5)) := by
  show StableHlo.after hostOps0 (fun b => m (c, b)) (Proc.devRef .tc main_v2) = _
  after_results

/-! ## Every window's block is its whole array -/

theorem iblk0 (c : Dev nD) (t : Fin cfg0.N) : (iblk m c 0 t : S32x2048.Idx → EReal) = V m c main_v0 := by
  unfold iblk
  exact Memref.read_access_unit_zero (Elt Ideal) main_v0 (funext fun a => Nat.zero_mul _) _ _

theorem iblk1 (c : Dev nD) (t : Fin cfg0.N) : (iblk m c 1 t : S2048x2048.Idx → EReal) = V m c main_arg1 := by
  unfold iblk
  exact Memref.read_access_unit_zero (Elt Ideal) main_arg1 (funext fun a => Nat.zero_mul _) _ _

theorem iblk2 (c : Dev nD) (t : Fin cfg0.N) : (iblk m c 2 t : S32x32.Idx → EReal) = V m c main_arg2 := by
  unfold iblk
  exact Memref.read_access_unit_zero (Elt Ideal) main_arg2 (funext fun a => Nat.zero_mul _) _ _

theorem iblk3 (c : Dev nD) (t : Fin cfg0.N) : (iblk m c 3 t : S32x1.Idx → EReal) = V m c main_v1 := by
  unfold iblk
  exact Memref.read_access_unit_zero (Elt Ideal) main_v1 (funext fun a => Nat.zero_mul _) _ _

theorem iblk4 (c : Dev nD) (t : Fin cfg0.N) : (iblk m c 4 t : S16x32.Idx → EReal) = V m c main_arg4 := by
  unfold iblk
  exact Memref.read_access_unit_zero (Elt Ideal) main_arg4 (funext fun a => Nat.zero_mul _) _ _

theorem iblk5 (c : Dev nD) (t : Fin cfg0.N) : (iblk m c 5 t : S16x1.Idx → EReal) = V m c main_v2 := by
  unfold iblk
  exact Memref.read_access_unit_zero (Elt Ideal) main_v2 (funext fun a => Nat.zero_mul _) _ _

/-! ## What the one grid point writes back, the cover, and the array after the run -/

/-- The launched arguments of core `c`, by position. -/
abbrev arg0 (c : Dev nD) : FVec Ideal S2048x32 .f32 := m ((c : Thread nD τ).loc main_arg0)
abbrev arg1 (c : Dev nD) : FVec Ideal S2048x2048 .f32 := m ((c : Thread nD τ).loc main_arg1)
abbrev arg2 (c : Dev nD) : FVec Ideal S32x32 .f32 := m ((c : Thread nD τ).loc main_arg2)
abbrev arg3 (c : Dev nD) : FVec Ideal S32 .f32 := m ((c : Thread nD τ).loc main_arg3)
abbrev arg4 (c : Dev nD) : FVec Ideal S16x32 .f32 := m ((c : Thread nD τ).loc main_arg4)
abbrev arg5 (c : Dev nD) : FVec Ideal S16 .f32 := m ((c : Thread nD τ).loc main_arg5)

/-- The feature-major result over the launched arguments. -/
abbrev resT (c : Dev nD) : S16x2048.Idx → EReal := GT (arg0 m c) (arg1 m c) (arg2 m c) (arg3 m c) (arg4 m c) (arg5 m c)

/-- The point writes back the whole feature-major result. -/
theorem flushed_eq (c : Dev nD) (t : Fin cfg0.N) :
    (dats m 0 c).flushed 6 t = ((cfg0.win 6).blk t).view.read (Elt Ideal) (resT m c) := by
  show (cfg0.win 6).cut (grid0.coords t) ((dats m 0 c).after 6 t) = _
  rw [after0_6]
  unfold out0_6
  rw [View.canon_unit_zero hz]
  simp only [View.ld_unit_zero (S := S2048x2048) hz, View.ld_unit_zero (S := S32x2048) hz, View.ld_unit_zero (S := S32x32) hz,
    View.ld_unit_zero (S := S32x1) hz, View.ld_unit_zero (S := S16x32) hz, View.ld_unit_zero (S := S16x1) hz]
  rw [iblk0, iblk1, iblk2, iblk3, iblk4, iblk5, V_v0, V_v1, V_v2, V_main_arg1, V_main_arg2, V_main_arg4]
  refine Eq.trans ?_ (Memref.read_access_unit_zero (Elt Ideal) main_v3 (funext fun a => Nat.zero_mul _) _ (resT m c)).symm
  funext j
  obtain ⟨f, d, rfl⟩ : ∃ (f : Fin 16) (d : Fin 2048), j = ix2 f d := ⟨j 0, j 1, eq_ix2 j⟩
  exact payload_hosted _ _ _ _ _ _ _ _ _ f d

/-- The one block covers the array, so the array ends holding the feature-major result. -/
theorem final (c : Dev nD) : (dats m 0 c).arrAt 6 cfg0.N = resT m c :=
  (dats m 0 c).arrAt_eq_of_cover 6 (resT m c) (fun t _ => flushed_eq m c t) fun i =>
    ⟨t0_0, flush0_6 t0_0, by
      show i ∈ ((View.whole main_v3).slice (win0_6.rect t0_0)).set
      rw [View.set_slice_whole, Rect.mem_set_unit]
      intro a
      have h0 : (i 0 : Nat) < 16 := (i 0).isLt
      have h1 : (i 1 : Nat) < 2048 := (i 1).isLt
      match a with
      | ⟨0, _⟩ => show 0 * 16 ≤ (i 0 : Nat) ∧ (i 0 : Nat) < 0 * 16 + 16; omega
      | ⟨1, _⟩ => show 0 * 2048 ≤ (i 1 : Nat) ∧ (i 1 : Nat) < 0 * 2048 + 2048; omega⟩

end Cert.KernelIdeal.KValue

end
-- ==== Proof.KernelRun.lean ====
/-
  The kernel program's run, read. After the call the host transposes the feature-major array into the result buffer,
  so the result buffer ends at the specification's result of the six argument arrays; no operation writes an argument.
-/
import proofs.«162544_g17308718202953_retrytranche2_243_3_alg».proof.Proof.KernelBlocks

noncomputable section

namespace Cert.KernelIdeal.KValue

open Cert.KernelIdeal Cert.KernelIdeal.Gen Idealize.ShloMosaic Idealize.ShloMosaic.TcCoe Idealize.ShloMosaic.Tactic
open Idealize.SL.Sem Idealize.ShloMosaic.ValueIdx
open Idealize.ShloMosaic.Pipeline (Dat)

variable (m : (ℓ : Loc nD τ sig) → Buf (Elt Ideal) ℓ) (ρ : Dev nD → PrngReg)

/-! ## The transpose after the call, and the run -/

/-- The result buffer after the host's last operation: the feature-major result transposed, which is the
    specification's result. -/
theorem tail_v4 (c : Dev nD) :
    Pipeline.afterTail₀ cfgs (dats m) 0 (V0 m) [hostOps1] c main_v4
      = Gcn.G (arg0 m c) (arg1 m c) (arg2 m c) (arg3 m c) (arg4 m c) (arg5 m c) := by
  unfold Pipeline.afterTail₀
  show StableHlo.after hostOps1 _ (Proc.devRef .tc main_v4) = _
  after_results
  rw [(Pipeline.withArrays_arr spec0 launch0.win.arr_inj c _ _ 6).trans (final m c)]
  funext i
  obtain ⟨d, f, rfl⟩ : ∃ (d : Fin 2048) (f : Fin 16), i = ix2 d f := ⟨i 0, i 1, eq_ix2 i⟩
  exact transpose_ix2_apply (resT m c) _ d f

/-- The kernel program's run: the result buffer ends at the specification's result of the six argument arrays, and
    the arguments end as launched. -/
theorem run : θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v4) = Gcn.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v4 (Pipeline.mem_restRefs_of main_v4 (by decide) (by decide))).trans (tail_v4 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.KValue

end
-- ==== Proof.lean ====
/-
  A fused dense graph-convolution kernel against a message-passing reference, equal on the extended reals.

  The kernel computes a two-layer graph convolution with a temperature-scaled log-softmax in one pass over a
  dense adjacency matrix `A`, feature-major: degrees as column sums plus one, the normaliser `deg^(-1/2)`, and each
  layer as `dinv · (Aᵀ-product of the dinv-scaled features) + dinv² · features + bias`. The reference enumerates
  all 2048² ordered node pairs as explicit edges, appends a self-loop per node, and passes messages: it looks up
  each edge's weight and its endpoints' normalisers, scales the source's transformed features, and sums the
  messages into their destinations.

  Both results are ONE function of the six argument arrays, `Gcn.G`: the kernel's by reading its one block off
  the run that stages, computes and writes back, and transposing; the reference's by reading its operations one
  at a time, the sums over edges becoming sums over source nodes. The two associations of a layer are joined by
  the one law that is not free on the extended reals — a factor moved across a sum — which holds here because the
  normaliser is a non-negative finite number whatever the inputs. The kernel multiplies by 5 where the reference
  divides by the single-precision 0.2; the 5 is read as the exact reciprocal of that binary value, and dividing
  by a non-zero real is multiplying by its reciprocal.
-/
import proofs.«162544_g17308718202953_retrytranche2_243_3_alg».proof.Defs
import proofs.«162544_g17308718202953_retrytranche2_243_3_alg».proof.Proof.Gen.Kernel
import proofs.«162544_g17308718202953_retrytranche2_243_3_alg».proof.Proof.Gen.Kernel.Skeleton
import proofs.«162544_g17308718202953_retrytranche2_243_3_alg».proof.Proof.Gen.Kernel.Launch
import proofs.«162544_g17308718202953_retrytranche2_243_3_alg».proof.Proof.Gen.Kernel.Points
import proofs.«162544_g17308718202953_retrytranche2_243_3_alg».proof.Proof.Gen.Kernel.Frame
import proofs.«162544_g17308718202953_retrytranche2_243_3_alg».proof.Proof.Gen.KernelIdeal
import proofs.«162544_g17308718202953_retrytranche2_243_3_alg».proof.Proof.Gen.KernelIdeal.Skeleton
import proofs.«162544_g17308718202953_retrytranche2_243_3_alg».proof.Proof.Gen.KernelIdeal.Launch
import proofs.«162544_g17308718202953_retrytranche2_243_3_alg».proof.Proof.Gen.KernelIdeal.Points
import proofs.«162544_g17308718202953_retrytranche2_243_3_alg».proof.Proof.Gen.KernelIdeal.Frame
import proofs.«162544_g17308718202953_retrytranche2_243_3_alg».proof.Proof.Gen.ReferenceIdeal
import proofs.«162544_g17308718202953_retrytranche2_243_3_alg».proof.Proof.Gen.Pre_finite_inputs
import Idealize.ShloMosaic.Adequacy
import Idealize.ShloMosaic.Init
import proofs.«162544_g17308718202953_retrytranche2_243_3_alg».proof.Proof.RefLayer2
import proofs.«162544_g17308718202953_retrytranche2_243_3_alg».proof.Proof.RunPatched
import proofs.«162544_g17308718202953_retrytranche2_243_3_alg».proof.Proof.KernelRun

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The one rewrite of the idealization: the scale 5 is named the exact reciprocal of the temperature's binary
    value, which is what the table of named constants gives it. -/
theorem preserves : Cert.preserves_Kernel_KernelIdeal :=
  IdealRules.named_const.statement Cert.KernelIdeal.κ "fold_c_67108864_13421773" .f32 0x40A00000#32
    ((67108864 / 13421773 : ℝ) : EReal) rfl

/-- From memories that agree on the arguments both programs end with the specification's array of those
    arguments as their result. -/
theorem algebraic : Cert.algebraic_KernelIdeal_ReferenceIdeal := by
  intro m ρ m' ρ' _ hagree
  refine ⟨fun c => Gcn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
